-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S64x4096x5 : Shape := ⟨3, ![64, 4096, 5]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S64x4096x5 : S_.BroadcastsInDim S64x4096x5 (![] : Fin 0 → Fin S64x4096x5.rank)
  reducesTo_S64x4096x5_S_d0_1_2 : S64x4096x5.ReducesTo [0, 1, 2] S_

variable [Facts]

def fn {F : FTy → Type} [FloatOps F] (main_arg0 : FVec F S8x64x4096 .f32) (main_arg1 : FVec F S64x4096x5 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S64x4096x5 .f32 := Host.absf main_arg1
  let main_cst_0 : FVec F S_ .f32 := constant S_ .f32 0x7F800000#32
  let main_v5 : FVec F S64x4096x5 .f32 := broadcastInDim S64x4096x5 ![] bcast_S_S64x4096x5 main_cst_0
  let main_v6 : IVec S64x4096x5 1 := cmpf .olt main_v4 main_v5
  let main_c_1 : IVec S_ 1 := constantI S_ 1 1#1
  let main_v7 : IVec S_ 1 := (fun x v => Host.reduce IntOp.andi x v reducesTo_S64x4096x5_S_d0_1_2 h_S_) main_v6 main_c_1
  let main_v8 : IVec S_ 1 := andi main_v3 main_v7
  main_v8
-- ==== Kernel.lean ====
abbrev S8x64x4096 : Shape := ⟨3, ![8, 64, 4096]⟩
abbrev S64x4096x5 : Shape := ⟨3, ![64, 4096, 5]⟩
abbrev S5x64x4096 : Shape := ⟨3, ![5, 64, 4096]⟩
abbrev S2x5x4x4093 : Shape := ⟨4, ![2, 5, 4, 4093]⟩
abbrev S4x64x4096 : Shape := ⟨3, ![4, 64, 4096]⟩
abbrev S1x64x4096 : Shape := ⟨3, ![1, 64, 4096]⟩
abbrev S1x1x4x4093 : Shape := ⟨4, ![1, 1, 4, 4093]⟩
abbrev S4x4096 : Shape := ⟨2, ![4, 4096]⟩
abbrev S64x4096 : Shape := ⟨2, ![64, 4096]⟩
abbrev S4096 : Shape := ⟨1, ![4096]⟩
abbrev S1x4096 : Shape := ⟨2, ![1, 4096]⟩
abbrev S64x4095 : Shape := ⟨2, ![64, 4095]⟩
abbrev S4095 : Shape := ⟨1, ![4095]⟩
abbrev S1x4095 : Shape := ⟨2, ![1, 4095]⟩
abbrev S64x4094 : Shape := ⟨2, ![64, 4094]⟩
abbrev S4094 : Shape := ⟨1, ![4094]⟩
abbrev S1x4094 : Shape := ⟨2, ![1, 4094]⟩
abbrev S1x4093 : Shape := ⟨2, ![1, 4093]⟩
abbrev S4093 : Shape := ⟨1, ![4093]⟩
abbrev S1x1x1x4093 : Shape := ⟨4, ![1, 1, 1, 4093]⟩
abbrev S2x4x5x4093 : Shape := ⟨4, ![2, 4, 5, 4093]⟩
abbrev S8x5x4093 : Shape := ⟨3, ![8, 5, 4093]⟩

abbrev nBuf : Space → Nat
  | .hbm => 6
  | .vmem => 7
  | .smem => 0
  | _ => 0

abbrev bufTy : (tb : Table) → Fin (tcTables nBuf tb) → BufTy
  | .hbm, ⟨0, _⟩ => ⟨S8x64x4096, .f32⟩
  | .hbm, ⟨1, _⟩ => ⟨S64x4096x5, .f32⟩
  | .hbm, ⟨2, _⟩ => ⟨S5x64x4096, .f32⟩
  | .hbm, ⟨3, _⟩ => ⟨S2x5x4x4093, .f32⟩
  | .hbm, ⟨4, _⟩ => ⟨S2x4x5x4093, .f32⟩
  | .hbm, ⟨5, _⟩ => ⟨S8x5x4093, .f32⟩
  | .local _ .vmem, ⟨0, _⟩ => ⟨S4x64x4096, .f32⟩
  | .local _ .vmem, ⟨1, _⟩ => ⟨S4x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x1x4x4093, .f32⟩
  | .local _ .vmem, ⟨5, _⟩ => ⟨S1x1x4x4093, .f32⟩
  | .local _ .vmem, ⟨6, _⟩ => ⟨S4x4096, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4x4093 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S64x4096x5_S5x64x4096_2_0_1 : S64x4096x5.Transposes [2, 0, 1] S5x64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S4096 : S64x4096.Reduces [0] S4096
  shapeCasts_S4096_S1x4096 : S4096.ShapeCasts S1x4096
  inb_S4x64x4096_S1x64x4096_0_0_0 : ∀ a, (![0, 0, 0] : Fin 3 → Nat) a + S1x64x4096.size a ≤ S4x64x4096.size a
  inb_S4x4096_S1x4096_0_0 : ∀ a, (![0, 0] : Fin 2 → Nat) a + S1x4096.size a ≤ S4x4096.size a
  h_S1x4096 : 0 < S1x4096.numel
  shapeCasts_S1x4096_S1x4096 : S1x4096.ShapeCasts S1x4096
  inb_S4x64x4096_S1x64x4096_1_0_0 : ∀ a, (![1, 0, 0] : Fin 3 → Nat) a + S1x64x4096.size a ≤ S4x64x4096.size a
  inb_S4x4096_S1x4096_1_0 : ∀ a, (![1, 0] : Fin 2 → Nat) a + S1x4096.size a ≤ S4x4096.size a
  inb_S4x64x4096_S1x64x4096_2_0_0 : ∀ a, (![2, 0, 0] : Fin 3 → Nat) a + S1x64x4096.size a ≤ S4x64x4096.size a
  inb_S4x4096_S1x4096_2_0 : ∀ a, (![2, 0] : Fin 2 → Nat) a + S1x4096.size a ≤ S4x4096.size a
  inb_S4x64x4096_S1x64x4096_3_0_0 : ∀ a, (![3, 0, 0] : Fin 3 → Nat) a + S1x64x4096.size a ≤ S4x64x4096.size a
  inb_S4x4096_S1x4096_3_0 : ∀ a, (![3, 0] : Fin 2 → Nat) a + S1x4096.size a ≤ S4x4096.size a
  slices_S64x4096_o0_0_S64x4095 : S64x4096.Slices ![0, 0] S64x4095
  slices_S64x4096_o0_1_S64x4095 : S64x4096.Slices ![0, 1] S64x4095
  reduces_S64x4095_S4095 : S64x4095.Reduces [0] S4095
  shapeCasts_S4095_S1x4095 : S4095.ShapeCasts S1x4095
  slices_S64x4096_o0_0_S64x4094 : S64x4096.Slices ![0, 0] S64x4094
  slices_S64x4096_o0_2_S64x4094 : S64x4096.Slices ![0, 2] S64x4094
  reduces_S64x4094_S4094 : S64x4094.Reduces [0] S4094
  shapeCasts_S4094_S1x4094 : S4094.ShapeCasts S1x4094
  slices_S1x4096_o0_0_S1x4093 : S1x4096.Slices ![0, 0] S1x4093
  slices_S1x4096_o0_1_S1x4093 : S1x4096.Slices ![0, 1] S1x4093
  slices_S1x4096_o0_2_S1x4093 : S1x4096.Slices ![0, 2] S1x4093
  slices_S1x4096_o0_3_S1x4093 : S1x4096.Slices ![0, 3] S1x4093
  slices_S1x4095_o0_0_S1x4093 : S1x4095.Slices ![0, 0] S1x4093
  slices_S1x4095_o0_1_S1x4093 : S1x4095.Slices ![0, 1] S1x4093
  slices_S1x4095_o0_2_S1x4093 : S1x4095.Slices ![0, 2] S1x4093
  slices_S1x4094_o0_0_S1x4093 : S1x4094.Slices ![0, 0] S1x4093
  slices_S1x4094_o0_1_S1x4093 : S1x4094.Slices ![0, 1] S1x4093
  shapeCasts_S1x4093_S4093 : S1x4093.ShapeCasts S4093
  inb_S1x1x4x4093_S1x1x1x4093_0_0_0_0 : ∀ a, (![0, 0, 0, 0] : Fin 4 → Nat) a + S1x1x1x4093.size a ≤ S1x1x4x4093.size a
  h_S1x1x1x4093 : 0 < S1x1x1x4093.numel
  shapeCasts_S1x1x1x4093_S4093 : S1x1x1x4093.ShapeCasts S4093
  shapeCasts_S4093_S1x1x1x4093 : S4093.ShapeCasts S1x1x1x4093
  inb_S1x1x4x4093_S1x1x1x4093_0_0_1_0 : ∀ a, (![0, 0, 1, 0] : Fin 4 → Nat) a + S1x1x1x4093.size a ≤ S1x1x4x4093.size a
  inb_S1x1x4x4093_S1x1x1x4093_0_0_2_0 : ∀ a, (![0, 0, 2, 0] : Fin 4 → Nat) a + S1x1x1x4093.size a ≤ S1x1x4x4093.size a
  inb_S1x1x4x4093_S1x1x1x4093_0_0_3_0 : ∀ a, (![0, 0, 3, 0] : Fin 4 → Nat) a + S1x1x1x4093.size a ≤ S1x1x4x4093.size a
  transposes_S2x5x4x4093_S2x4x5x4093_0_2_1_3 : S2x5x4x4093.Transposes [0, 2, 1, 3] S2x4x5x4093
  shapeCasts_S2x4x5x4093_S8x5x4093 : S2x4x5x4093.ShapeCasts S8x5x4093
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x4096.size a ≤ S8x64x4096.size a
  hwx0_0 : ∀ i : grid0.Coords, EltTy.bits .f32 = 32 ∨ (Rect.block (s := S8x64x4096) S4x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S5x64x4096.size a
  hwx0_1 : ∀ i : grid0.Coords, EltTy.bits .f32 = 32 ∨ (Rect.block (s := S5x64x4096) S1x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4x4093.size a ≤ S2x5x4x4093.size a
  hwx0_2 : ∀ i : grid0.Coords, EltTy.bits .f32 = 32 ∨ (Rect.block (s := S2x5x4x4093) S1x1x4x4093.size (cc0_transform_2 i) (hinb0_2 i)).WholeWords (EltTy.packing .f32)

variable [Facts₀]

abbrev win0_0 : Pipeline.Window sig grid0 :=
  Pipeline.Window.ofSpec (Memref.whole main_arg0) S4x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4x4093.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S64x4096x5 : Shape := ⟨3, ![64, 4096, 5]⟩
abbrev S5x64x4096 : Shape := ⟨3, ![5, 64, 4096]⟩
abbrev S5x1x64x4096 : Shape := ⟨4, ![5, 1, 64, 4096]⟩
abbrev S1x8x64x4096 : Shape := ⟨4, ![1, 8, 64, 4096]⟩
abbrev S1x8x64x4093 : Shape := ⟨4, ![1, 8, 64, 4093]⟩
abbrev S5x1x64x4093 : Shape := ⟨4, ![5, 1, 64, 4093]⟩
abbrev S5x8x64x4093 : Shape := ⟨4, ![5, 8, 64, 4093]⟩
abbrev S5x8x64x4093x1 : Shape := ⟨5, ![5, 8, 64, 4093, 1]⟩
abbrev S5x8x64x4093x9 : Shape := ⟨5, ![5, 8, 64, 4093, 9]⟩
abbrev S_ : Shape := ⟨0, ![]⟩
abbrev S5x8x4093x9 : Shape := ⟨4, ![5, 8, 4093, 9]⟩
abbrev S5x8x4093 : Shape := ⟨3, ![5, 8, 4093]⟩
abbrev S5x8x4093x1 : Shape := ⟨4, ![5, 8, 4093, 1]⟩
abbrev S8x5x4093 : Shape := ⟨3, ![8, 5, 4093]⟩

abbrev nBuf : Space → Nat
  | .hbm => 137
  | .vmem => 0
  | .smem => 0
  | _ => 0

abbrev hbmTy0_0 (i : Nat) : BufTy := match i % 128 with
  | 0 => ⟨S8x64x4096, .f32⟩
  | 1 => ⟨S64x4096x5, .f32⟩
  | 2 => ⟨S5x64x4096, .f32⟩
  | 3 => ⟨S5x1x64x4096, .f32⟩
  | 4 => ⟨S1x8x64x4096, .f32⟩
  | 5 => ⟨S1x8x64x4093, .f32⟩
  | 6 => ⟨S1x8x64x4093, .f32⟩
  | 7 => ⟨S1x8x64x4093, .f32⟩
  | 8 => ⟨S1x8x64x4093, .f32⟩
  | 9 => ⟨S5x1x64x4093, .f32⟩
  | 10 => ⟨S5x1x64x4093, .f32⟩
  | 11 => ⟨S5x1x64x4093, .f32⟩
  | 12 => ⟨S5x1x64x4093, .f32⟩
  | 13 => ⟨S5x8x64x4093, .f32⟩
  | 14 => ⟨S5x8x64x4093, .f32⟩
  | 15 => ⟨S5x8x64x4093, .f32⟩
  | 16 => ⟨S5x8x64x4093, .f32⟩
  | 17 => ⟨S5x8x64x4093, .f32⟩
  | 18 => ⟨S5x8x64x4093, .f32⟩
  | 19 => ⟨S5x8x64x4093, .f32⟩
  | 20 => ⟨S5x8x64x4093, .f32⟩
  | 21 => ⟨S5x8x64x4093, .f32⟩
  | 22 => ⟨S5x8x64x4093, .f32⟩
  | 23 => ⟨S5x8x64x4093, .f32⟩
  | 24 => ⟨S5x8x64x4093, .f32⟩
  | 25 => ⟨S5x8x64x4093, .f32⟩
  | 26 => ⟨S5x8x64x4093, .f32⟩
  | 27 => ⟨S5x8x64x4093, .f32⟩
  | 28 => ⟨S5x8x64x4093, .f32⟩
  | 29 => ⟨S5x8x64x4093, .f32⟩
  | 30 => ⟨S5x8x64x4093, .f32⟩
  | 31 => ⟨S5x8x64x4093, .f32⟩
  | 32 => ⟨S5x8x64x4093, .f32⟩
  | 33 => ⟨S5x8x64x4093, .f32⟩
  | 34 => ⟨S5x8x64x4093, .f32⟩
  | 35 => ⟨S5x8x64x4093, .f32⟩
  | 36 => ⟨S5x8x64x4093, .f32⟩
  | 37 => ⟨S5x8x64x4093, .f32⟩
  | 38 => ⟨S5x8x64x4093, .f32⟩
  | 39 => ⟨S5x8x64x4093, .f32⟩
  | 40 => ⟨S5x8x64x4093, .f32⟩
  | 41 => ⟨S5x8x64x4093, .f32⟩
  | 42 => ⟨S5x8x64x4093, .f32⟩
  | 43 => ⟨S5x8x64x4093, .f32⟩
  | 44 => ⟨S5x8x64x4093, .f32⟩
  | 45 => ⟨S5x8x64x4093, .f32⟩
  | 46 => ⟨S5x8x64x4093, .f32⟩
  | 47 => ⟨S5x8x64x4093, .f32⟩
  | 48 => ⟨S5x8x64x4093, .f32⟩
  | 49 => ⟨S5x8x64x4093, .f32⟩
  | 50 => ⟨S5x8x64x4093, .f32⟩
  | 51 => ⟨S5x8x64x4093, .f32⟩
  | 52 => ⟨S5x8x64x4093, .f32⟩
  | 53 => ⟨S5x8x64x4093, .f32⟩
  | 54 => ⟨S5x8x64x4093, .f32⟩
  | 55 => ⟨S5x8x64x4093, .f32⟩
  | 56 => ⟨S5x8x64x4093, .f32⟩
  | 57 => ⟨S5x8x64x4093, .f32⟩
  | 58 => ⟨S5x8x64x4093, .f32⟩
  | 59 => ⟨S5x8x64x4093, .f32⟩
  | 60 => ⟨S5x8x64x4093, .f32⟩
  | 61 => ⟨S5x8x64x4093, .f32⟩
  | 62 => ⟨S5x8x64x4093, .f32⟩
  | 63 => ⟨S5x8x64x4093, .f32⟩
  | 64 => ⟨S5x8x64x4093, .f32⟩
  | 65 => ⟨S5x8x64x4093, .f32⟩
  | 66 => ⟨S5x8x64x4093, .f32⟩
  | 67 => ⟨S5x8x64x4093, .f32⟩
  | 68 => ⟨S5x8x64x4093, .f32⟩
  | 69 => ⟨S5x8x64x4093, .f32⟩
  | 70 => ⟨S5x8x64x4093, .f32⟩
  | 71 => ⟨S5x8x64x4093, .f32⟩
  | 72 => ⟨S5x8x64x4093, .f32⟩
  | 73 => ⟨S5x8x64x4093, .f32⟩
  | 74 => ⟨S5x8x64x4093, .f32⟩
  | 75 => ⟨S5x8x64x4093, .f32⟩
  | 76 => ⟨S5x8x64x4093, .f32⟩
  | 77 => ⟨S5x8x64x4093, .f32⟩
  | 78 => ⟨S5x8x64x4093, .f32⟩
  | 79 => ⟨S5x8x64x4093, .f32⟩
  | 80 => ⟨S5x8x64x4093, .f32⟩
  | 81 => ⟨S5x8x64x4093, .f32⟩
  | 82 => ⟨S5x8x64x4093, .f32⟩
  | 83 => ⟨S5x8x64x4093, .f32⟩
  | 84 => ⟨S5x8x64x4093, .f32⟩
  | 85 => ⟨S5x8x64x4093, .f32⟩
  | 86 => ⟨S5x8x64x4093, .f32⟩
  | 87 => ⟨S5x8x64x4093, .f32⟩
  | 88 => ⟨S5x8x64x4093, .f32⟩
  | 89 => ⟨S5x8x64x4093, .f32⟩
  | 90 => ⟨S5x8x64x4093, .f32⟩
  | 91 => ⟨S5x8x64x4093, .f32⟩
  | 92 => ⟨S5x8x64x4093, .f32⟩
  | 93 => ⟨S5x8x64x4093, .f32⟩
  | 94 => ⟨S5x8x64x4093, .f32⟩
  | 95 => ⟨S5x8x64x4093, .f32⟩
  | 96 => ⟨S5x8x64x4093, .f32⟩
  | 97 => ⟨S5x8x64x4093, .f32⟩
  | 98 => ⟨S5x8x64x4093, .f32⟩
  | 99 => ⟨S5x8x64x4093, .f32⟩
  | 100 => ⟨S5x8x64x4093, .f32⟩
  | 101 => ⟨S5x8x64x4093, .f32⟩
  | 102 => ⟨S5x8x64x4093, .f32⟩
  | 103 => ⟨S5x8x64x4093, .f32⟩
  | 104 => ⟨S5x8x64x4093, .f32⟩
  | 105 => ⟨S5x8x64x4093, .f32⟩
  | 106 => ⟨S5x8x64x4093x1, .f32⟩
  | 107 => ⟨S5x8x64x4093x1, .f32⟩
  | 108 => ⟨S5x8x64x4093x1, .f32⟩
  | 109 => ⟨S5x8x64x4093x1, .f32⟩
  | 110 => ⟨S5x8x64x4093x1, .f32⟩
  | 111 => ⟨S5x8x64x4093x1, .f32⟩
  | 112 => ⟨S5x8x64x4093x1, .f32⟩
  | 113 => ⟨S5x8x64x4093x1, .f32⟩
  | 114 => ⟨S5x8x64x4093x1, .f32⟩
  | 115 => ⟨S5x8x64x4093x9, .f32⟩
  | 116 => ⟨S_, .f32⟩
  | 117 => ⟨S5x8x4093x9, .f32⟩
  | 118 => ⟨S5x8x4093x9, .f32⟩
  | 119 => ⟨S_, .f32⟩
  | 120 => ⟨S5x8x4093, .f32⟩
  | 121 => ⟨S_, .f32⟩
  | 122 => ⟨S5x8x4093, .f32⟩
  | 123 => ⟨S5x8x4093, .f32⟩
  | 124 => ⟨S5x8x4093x1, .f32⟩
  | 125 => ⟨S5x8x4093x9, .f32⟩
  | 126 => ⟨S5x8x4093x9, .f32⟩
  | 127 => ⟨S5x8x4093x9, .f32⟩
  | _ => ⟨S8x64x4096, .f32⟩

abbrev hbmTy0_1 (i : Nat) : BufTy := match i % 128 with
  | 0 => ⟨S_, .f32⟩
  | 1 => ⟨S5x8x4093, .f32⟩
  | 2 => ⟨S5x8x4093x1, .f32⟩
  | 3 => ⟨S5x8x4093x9, .f32⟩
  | 4 => ⟨S5x8x4093x9, .f32⟩
  | 5 => ⟨S5x8x4093x9, .f32⟩
  | 6 => ⟨S_, .f32⟩
  | 7 => ⟨S5x8x4093, .f32⟩
  | 8 => ⟨S8x5x4093, .f32⟩
  | _ => ⟨S8x64x4096, .f32⟩

abbrev hbmTy (i : Nat) : BufTy := match i / 128 with
  | 0 => hbmTy0_0 i
  | 1 => hbmTy0_1 i
  | _ => ⟨S8x64x4096, .f32⟩

abbrev bufTy : (tb : Table) → Fin (tcTables nBuf tb) → BufTy
  | .hbm, ⟨i, _⟩ => hbmTy i
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_cst : Ref sig .tc := ⟨.hbm, 116, rfl⟩
abbrev main_v114 : Ref sig .tc := ⟨.hbm, 117, rfl⟩
abbrev main_v115 : Ref sig .tc := ⟨.hbm, 118, rfl⟩
abbrev main_cst_0 : Ref sig .tc := ⟨.hbm, 119, rfl⟩
abbrev main_v116 : Ref sig .tc := ⟨.hbm, 120, rfl⟩
abbrev main_cst_1 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_cst_2 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_cst_3 : Ref sig .tc := ⟨.hbm, 134, rfl⟩
abbrev main_v128 : Ref sig .tc := ⟨.hbm, 135, rfl⟩
abbrev main_v129 : Ref sig .tc := ⟨.hbm, 136, rfl⟩

abbrev nD : Nat := 1
abbrev τ : Topo := Topo.v7x

variable {F : FTy → Type} [FloatOps F]

class Facts₀ : Prop where
  transposes_S64x4096x5_S5x64x4096_2_0_1 : S64x4096x5.Transposes [2, 0, 1] S5x64x4096
  bcast_S5x64x4096_S5x1x64x4096_0_2_3 : S5x64x4096.BroadcastsInDim S5x1x64x4096 (![0, 2, 3] : Fin 3 → Fin S5x1x64x4096.rank)
  bcast_S8x64x4096_S1x8x64x4096_1_2_3 : S8x64x4096.BroadcastsInDim S1x8x64x4096 (![1, 2, 3] : Fin 3 → Fin S1x8x64x4096.rank)
  slices_S1x8x64x4096_S1x8x64x4093_0_0_0_0 : S1x8x64x4096.Slices ![0, 0, 0, 0] S1x8x64x4093
  slices_S1x8x64x4096_S1x8x64x4093_0_0_0_1 : S1x8x64x4096.Slices ![0, 0, 0, 1] S1x8x64x4093
  slices_S1x8x64x4096_S1x8x64x4093_0_0_0_2 : S1x8x64x4096.Slices ![0, 0, 0, 2] S1x8x64x4093
  slices_S1x8x64x4096_S1x8x64x4093_0_0_0_3 : S1x8x64x4096.Slices ![0, 0, 0, 3] S1x8x64x4093
  slices_S5x1x64x4096_S5x1x64x4093_0_0_0_0 : S5x1x64x4096.Slices ![0, 0, 0, 0] S5x1x64x4093
  slices_S5x1x64x4096_S5x1x64x4093_0_0_0_1 : S5x1x64x4096.Slices ![0, 0, 0, 1] S5x1x64x4093
  slices_S5x1x64x4096_S5x1x64x4093_0_0_0_2 : S5x1x64x4096.Slices ![0, 0, 0, 2] S5x1x64x4093
  slices_S5x1x64x4096_S5x1x64x4093_0_0_0_3 : S5x1x64x4096.Slices ![0, 0, 0, 3] S5x1x64x4093
  bcast_S1x8x64x4093_S5x8x64x4093_0_1_2_3 : S1x8x64x4093.BroadcastsInDim S5x8x64x4093 (![0, 1, 2, 3] : Fin 4 → Fin S5x8x64x4093.rank)
  bcast_S5x1x64x4093_S5x8x64x4093_0_1_2_3 : S5x1x64x4093.BroadcastsInDim S5x8x64x4093 (![0, 1, 2, 3] : Fin 4 → Fin S5x8x64x4093.rank)
  bcast_S5x8x64x4093_S5x8x64x4093x1_0_1_2_3 : S5x8x64x4093.BroadcastsInDim S5x8x64x4093x1 (![0, 1, 2, 3] : Fin 4 → Fin S5x8x64x4093x1.rank)
  concatenates_S5x8x64x4093x1_S5x8x64x4093x1_S5x8x64x4093x1_S5x8x64x4093x1_S5x8x64x4093x1_S5x8x64x4093x1_S5x8x64x4093x1_S5x8x64x4093x1_S5x8x64x4093x1_S5x8x64x4093x9_d4 : Shape.Concatenates [S5x8x64x4093x1, S5x8x64x4093x1, S5x8x64x4093x1, S5x8x64x4093x1, S5x8x64x4093x1, S5x8x64x4093x1, S5x8x64x4093x1, S5x8x64x4093x1, S5x8x64x4093x1] S5x8x64x4093x9 4
  reducesTo_S5x8x64x4093x9_S5x8x4093x9_d2 : S5x8x64x4093x9.ReducesTo [2] S5x8x4093x9
  h_S_ : 0 < S_.numel
  reducesTo_S5x8x4093x9_S5x8x4093_d3 : S5x8x4093x9.ReducesTo [3] S5x8x4093
  bcast_S_S5x8x4093 : S_.BroadcastsInDim S5x8x4093 (![] : Fin 0 → Fin S5x8x4093.rank)
  bcast_S5x8x4093_S5x8x4093x1_0_1_2 : S5x8x4093.BroadcastsInDim S5x8x4093x1 (![0, 1, 2] : Fin 3 → Fin S5x8x4093x1.rank)
  bcast_S5x8x4093x1_S5x8x4093x9_0_1_2_3 : S5x8x4093x1.BroadcastsInDim S5x8x4093x9 (![0, 1, 2, 3] : Fin 4 → Fin S5x8x4093x9.rank)
  transposes_S5x8x4093_S8x5x4093_1_0_2 : S5x8x4093.Transposes [1, 0, 2] S8x5x4093

variable [Facts₀]

class Facts : Prop extends Facts₀ where

variable [Facts]
-- ==== Proof.DtwGridIdx.lean ====
/-
  The three windows of the kernel over its grid of 2 × 5 points.

  Point t = 5·g + e reads the signal block of rows 4·g .. 4·g + 3 (window 0: block [4, 64, 4096] of the signal array
  [8, 64, 4096]), the template block e (window 1: block [1, 64, 4096] of the template array with the template axis brought
  to the front, [5, 64, 4096]) and writes the output block (g, e) (window 2: block [1, 1, 4, 4093] of [2, 5, 4, 4093]).
  Read at an index: the signal block at (r, c, m) is the signal array at (4·g + r, c, m); the template block at (·, c, m) is
  the template argument at (c, m, e).
-/
import proofs.«169870_j18098992185357_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Grid

open Cert.KernelIdeal Cert.KernelIdeal.Gen

variable (m : (ℓ : Loc nD τ sig) → Buf (Elt Ideal) ℓ) (ρ : Dev nD → PrngReg)

/-! ## The three windows over the grid -/

/-- Grid point t = 5·g + e reads signal block g and template e and writes output block (g, e): the printed index maps,
    decided over the ten points. -/
theorem idx_facts : ∀ t : Fin cfg0.N,
    win0_0.index t (0 : Fin 3) = t.val / 5 ∧ win0_0.index t (1 : Fin 3) = 0 ∧ win0_0.index t (2 : Fin 3) = 0
    ∧ win0_1.index t (0 : Fin 3) = t.val % 5 ∧ win0_1.index t (1 : Fin 3) = 0 ∧ win0_1.index t (2 : Fin 3) = 0
    ∧ win0_2.index t (0 : Fin 4) = t.val / 5 ∧ win0_2.index t (1 : Fin 4) = t.val % 5
    ∧ win0_2.index t (2 : Fin 4) = 0 ∧ win0_2.index t (3 : Fin 4) = 0 :=
  (by decide +kernel : ∀ t : Fin grid0.N, _)

theorem t_lt (t : Fin cfg0.N) : t.val < 10 := lt_of_lt_of_eq t.isLt (show cfg0.N = 10 from N_0)

/-- The signal block at point t: rows 4·(t / 5) .. 4·(t / 5) + 3 of the signal array. -/
theorem iblk_x (c : Dev nD) (t : Fin cfg0.N) (r : Fin 4) (ch : Fin 64) (mm : Fin 4096) :
    (iblk m c 0 t : Vec Ideal S4x64x4096 .f32) (ix3 r ch mm)
      = m ((c : Thread nD τ).loc main_arg0) (ix3 ⟨4 * (t.val / 5) + r.val, by have := t_lt t; omega⟩ ch mm) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 4 + 1 * r.val = 4 * (t.val / 5) + r.val; rw [e0]; omega
  | ⟨1, _⟩ => show win0_0.index t (1 : Fin 3) * 64 + 1 * ch.val = ch.val; rw [e1]; omega
  | ⟨2, _⟩ => show win0_0.index t (2 : Fin 3) * 4096 + 1 * mm.val = mm.val; rw [e2]; omega

/-- The template array as the region finds it: the argument with the template axis brought to the front. -/
theorem V_main_v0 (c : Dev nD) :
    (V m c main_v0 : S5x64x4096.Idx → EReal)
      = transpose S5x64x4096 [2, 0, 1] (m ((c : Thread nD τ).loc main_arg1)) transposes_S64x4096x5_S5x64x4096_2_0_1 := by
  show StableHlo.after hostOps0 (fun b => m (c, b)) (Proc.devRef .tc main_v0) = _
  after_results

/-- The template block at point t: template t % 5. -/
theorem iblk_d (c : Dev nD) (t : Fin cfg0.N) (u : Fin 1) (ch : Fin 64) (mm : Fin 4096) :
    (iblk m c 1 t : Vec Ideal S1x64x4096 .f32) (ix3 u ch mm)
      = m ((c : Thread nD τ).loc main_arg1) (ix3 ch mm ⟨t.val % 5, Nat.mod_lt _ (by decide)⟩) := by
  obtain ⟨-, -, -, e0, e1, e2, -⟩ := idx_facts t
  unfold iblk
  rw [View.read_apply]
  show V m c main_v0 _ = _
  rw [V_main_v0]
  refine transpose_apply _ _ _ _ _ fun b => ?_
  have hu : u.val = 0 := by omega
  match b with
  | ⟨0, _⟩ => show t.val % 5 = win0_1.index t (0 : Fin 3) * 1 + 1 * u.val; rw [e0, hu]; omega
  | ⟨1, _⟩ => show ch.val = win0_1.index t (1 : Fin 3) * 64 + 1 * ch.val; rw [e1]; omega
  | ⟨2, _⟩ => show mm.val = win0_1.index t (2 : Fin 3) * 4096 + 1 * mm.val; rw [e2]; omega

/-- Inside a group of five points the signal block does not move: at a point that is not the first of its group it is the
    block of the point before. -/
theorem iblk0_pred (c : Dev nD) (t : Fin cfg0.N) (h : ¬ t.val % 5 = 0) :
    (iblk m c 0 t : Vec Ideal S4x64x4096 .f32)
      = (iblk m c 0 ⟨t.val - 1, lt_of_le_of_lt (Nat.sub_le _ _) t.isLt⟩ : Vec Ideal S4x64x4096 .f32) := by
  funext y
  obtain ⟨r, ch, mm, rfl⟩ : ∃ (r : Fin 4) (ch : Fin 64) (mm : Fin 4096), y = ix3 r ch mm := ⟨y 0, y 1, y 2, eq_ix3 y⟩
  rw [iblk_x, iblk_x]
  congr 2
  apply Fin.ext
  show 4 * (t.val / 5) + r.val = 4 * ((t.val - 1) / 5) + r.val
  have := t_lt t
  omega

end Cert.KernelIdeal.Grid

end
-- ==== Proof.DtwSpec.lean ====
/-
  The function both programs compute, in its two arrangements.

  One signal row `a : channel → sample → value` (64 channels, 4096 samples), one template `d` of the same shape, and a
  window start `l` (4093 starts; a window is the four consecutive samples `l, l+1, l+2, l+3`). Nine monotone paths lead
  through the 4 × 4 grid of pairs (signal sample i, template sample j) from (0,0) to (3,3). The cost of a path is the sum,
  over its steps and over the channels, of the squared differences (a(c, l+i) − d(c, l+j))². The result is the mean of the
  nine costs weighted by softmax(−cost).

  Two arrangements of the same number:
  * cost. Channel by channel, summing squared differences (`costR`); or with the square expanded,
    (a − d)² = a² + d² − 2·a·d, each of the three products summed over the channels first (`costK`). Equal whenever every
    entry is a real number (on the extended reals the expansion fails at the infinities).
  * mean. Each weight normalised, then the weighted costs summed (`mixR`); or the weighted costs summed, then one division
    (`mixK`). Equal whenever the costs and the shift `M` are real numbers: the normaliser is then a positive real.
-/
import Idealize.ShloMosaic.PureOps.Ideal
import Idealize.ShloMosaic.Lib.ValueIdx

noncomputable section

open scoped BigOperators

namespace Cert.Dtw

open Idealize.ShloMosaic Idealize.ShloMosaic.ValueIdx

/-- Sample `i + l` of the window of four consecutive samples that starts at `l`. -/
def at4 (l : Fin 4093) (i : Fin 4) : Fin 4096 := ⟨i.val + l.val, by omega⟩

/-- The nine monotone paths from (0,0) to (3,3): each a list of steps (signal sample, template sample). -/
def path : Fin 9 → List (Fin 4 × Fin 4)
  | 0 => [(0, 0), (1, 1), (2, 2), (3, 3)]
  | 1 => [(0, 0), (0, 1), (1, 2), (2, 3), (3, 3)]
  | 2 => [(0, 0), (0, 1), (0, 2), (1, 3), (2, 3), (3, 3)]
  | 3 => [(0, 0), (1, 1), (1, 2), (2, 3), (3, 3)]
  | 4 => [(0, 0), (0, 1), (1, 2), (2, 2), (3, 3)]
  | 5 => [(0, 0), (1, 0), (2, 1), (3, 2), (3, 3)]
  | 6 => [(0, 0), (1, 0), (2, 0), (3, 1), (3, 2), (3, 3)]
  | 7 => [(0, 0), (1, 1), (2, 1), (3, 2), (3, 3)]
  | 8 => [(0, 0), (1, 0), (2, 1), (2, 2), (3, 3)]

section Row

variable (a d : Fin 64 → Fin 4096 → EReal) (l : Fin 4093)

/-- The squared difference of signal sample `i` and template sample `j` of the window, in channel `c`. -/
def sq (i j : Fin 4) (c : Fin 64) : EReal :=
  (a c (at4 l i) - d c (at4 l j)) * (a c (at4 l i) - d c (at4 l j))

/-- The cost of path `k`, summed channel by channel. -/
def costR (k : Fin 9) : EReal := ∑ c : Fin 64, ((path k).map fun p => sq a d l p.1 p.2 c).sum

/-- Σ over the channels of f(c, m) · g(c, n). -/
def dot (f g : Fin 64 → Fin 4096 → EReal) (m n : Fin 4096) : EReal := ∑ c : Fin 64, f c m * g c n

/-- One step's cost with the square expanded: Σ a² + Σ d² − 2 · Σ a·d. -/
def stepK (i j : Fin 4) : EReal :=
  (dot a a (at4 l i) (at4 l i) + dot d d (at4 l j) (at4 l j)) - 2 * dot a d (at4 l i) (at4 l j)

/-- The cost of path `k` from the expanded steps. -/
def costK (k : Fin 9) : EReal := ((path k).map fun p => stepK a d l p.1 p.2).sum

end Row

section Mix

variable (T : Fin 9 → EReal) (M : EReal)

/-- The unnormalised weight of cost `k`: exp(−T k − M). -/
def weight (k : Fin 9) : EReal := Ideal.exp (-T k - M)

/-- Σ_k T k · (w k / Σ w): every weight normalised first. -/
def mixR : EReal := ∑ k : Fin 9, T k * Ideal.div (weight T M k) (∑ j : Fin 9, weight T M j)

/-- (Σ_k T k · w k) / Σ w: one division at the end. -/
def mixK : EReal := Ideal.div (∑ k : Fin 9, T k * weight T M k) (∑ j : Fin 9, weight T M j)

/-- The largest of the negated costs (the shift that keeps the exponentials at most 1). -/
def peak : EReal := Finset.univ.sup fun k : Fin 9 => -T k

end Mix

/-- The result for one signal row, one template and one window, reference arrangement. -/
def outR (a d : Fin 64 → Fin 4096 → EReal) (l : Fin 4093) : EReal :=
  mixR (costR a d l) (peak (costR a d l))

/-- The same, kernel arrangement. -/
def outK (a d : Fin 64 → Fin 4096 → EReal) (l : Fin 4093) : EReal :=
  mixK (costK a d l) (peak (costK a d l))

/-- Signal row `b` of the batch `X : [8, 64, 4096]`. -/
def rowX (X : (⟨3, ![8, 64, 4096]⟩ : Shape).Idx → EReal) (b : Fin 8) : Fin 64 → Fin 4096 → EReal :=
  fun c m => X (ix3 b c m)

/-- Template `e` of `W : [64, 4096, 5]` (the template index is the LAST axis). -/
def rowW (W : (⟨3, ![64, 4096, 5]⟩ : Shape).Idx → EReal) (e : Fin 5) : Fin 64 → Fin 4096 → EReal :=
  fun c m => W (ix3 c m e)

/-- The whole result array `[8, 5, 4093]`: entry (b, e, l) is the weighted mean for signal row `b`, template `e`, window `l`. -/
def G (X : (⟨3, ![8, 64, 4096]⟩ : Shape).Idx → EReal) (W : (⟨3, ![64, 4096, 5]⟩ : Shape).Idx → EReal) :
    (⟨3, ![8, 5, 4093]⟩ : Shape).Idx → EReal :=
  fun i => outR (rowX X (i 0)) (rowW W (i 1)) (i 2)

end Cert.Dtw

end
-- ==== Proof.DtwChain.lean ====
/-
  The kernel's order of operations, on numbers.

  The kernel caches P(m) = Σ_c a(c, m)² once per signal row and reuses it for every template; a step's cost is then
  (P(l+i) + Σ_c d(c, l+j)²) − 2 · Σ_c a(c, l+i) · d(c, l+j) (`stepP`). The nine path costs are left-nested sums of the steps
  (`chainCost`), the negation is written 0 − T, the shift is a left-nested maximum, and the two sums of the weighted mean
  are left-nested as well (`chainMix`). These are the same numbers as the specification's `costK` and `mixK` at the
  shift `peak`: addition and maximum on the extended reals are commutative and associative everywhere.
-/
import proofs.«169870_j18098992185357_2_alg».proof.Proof.DtwSpec

noncomputable section

open scoped BigOperators

namespace Cert.Dtw

open Idealize.ShloMosaic

/-- One step's cost from a cached row of squares `P`. -/
def stepP (P : Fin 4096 → EReal) (a d : Fin 64 → Fin 4096 → EReal) (l : Fin 4093) (i j : Fin 4) : EReal :=
  (P (at4 l i) + dot d d (at4 l j) (at4 l j)) - 2 * dot a d (at4 l i) (at4 l j)

/-- The nine path costs as left-nested sums of the step costs `t i j`. -/
def chainCost (t : Fin 4 → Fin 4 → EReal) : Fin 9 → EReal
  | 0 => ((t 0 0 + t 1 1) + t 2 2) + t 3 3
  | 1 => (((t 0 0 + t 0 1) + t 1 2) + t 2 3) + t 3 3
  | 2 => ((((t 0 0 + t 0 1) + t 0 2) + t 1 3) + t 2 3) + t 3 3
  | 3 => (((t 0 0 + t 1 1) + t 1 2) + t 2 3) + t 3 3
  | 4 => (((t 0 0 + t 0 1) + t 1 2) + t 2 2) + t 3 3
  | 5 => (((t 0 0 + t 1 0) + t 2 1) + t 3 2) + t 3 3
  | 6 => ((((t 0 0 + t 1 0) + t 2 0) + t 3 1) + t 3 2) + t 3 3
  | 7 => (((t 0 0 + t 1 1) + t 2 1) + t 3 2) + t 3 3
  | 8 => (((t 0 0 + t 1 0) + t 2 1) + t 2 2) + t 3 3

/-- The negated cost, written as the kernel writes it. -/
def negC (T : Fin 9 → EReal) (k : Fin 9) : EReal := 0 - T k

/-- The left-nested maximum of the nine negated costs. -/
def chainPeak (T : Fin 9 → EReal) : EReal :=
  max (max (max (max (max (max (max (max (negC T 0) (negC T 1)) (negC T 2)) (negC T 3)) (negC T 4)) (negC T 5)) (negC T 6))
    (negC T 7)) (negC T 8)

/-- The weight of cost `k`: exp((0 − T k) − peak). -/
def chainW (T : Fin 9 → EReal) (k : Fin 9) : EReal := Ideal.exp (negC T k - chainPeak T)

/-- The weighted mean with both sums left-nested and one division. -/
def chainMix (T : Fin 9 → EReal) : EReal :=
  Ideal.div
    ((((((((T 0 * chainW T 0 + T 1 * chainW T 1) + T 2 * chainW T 2) + T 3 * chainW T 3) + T 4 * chainW T 4)
      + T 5 * chainW T 5) + T 6 * chainW T 6) + T 7 * chainW T 7) + T 8 * chainW T 8)
    ((((((((chainW T 0 + chainW T 1) + chainW T 2) + chainW T 3) + chainW T 4) + chainW T 5) + chainW T 6)
      + chainW T 7) + chainW T 8)

/-- The kernel's number for one signal row, one template, one window, given the cached row of squares. -/
def outChain (P : Fin 4096 → EReal) (a d : Fin 64 → Fin 4096 → EReal) (l : Fin 4093) : EReal :=
  chainMix (chainCost (stepP P a d l))

end Cert.Dtw

end
-- ==== Proof.DtwBlock.lean ====
/-
  What one grid point writes, as a function of what it reads.

  A grid point (g, e) reads the signal block `x0 : [4, 64, 4096]` (signal rows 4g .. 4g+3), the template block
  `x1 : [1, 64, 4096]` (template e) and the cached rows of squares `xs0 : [4, 4096]`, and writes the block
  `[1, 1, 4, 4093]`: entry (·, ·, r, l) is the kernel's number for signal row `r` of the block and window `l` (`blockOut`).
  The cache holds P(r, m) = Σ_c x0(r, c, m)² (`sqRows`).
-/
import proofs.«169870_j18098992185357_2_alg».proof.KernelIdeal
import proofs.«169870_j18098992185357_2_alg».proof.Proof.DtwChain
import Idealize.ShloMosaic.Lib.ValueIdx

noncomputable section

open scoped BigOperators

namespace Cert.KernelIdeal.Rows

open Idealize.ShloMosaic Idealize.ShloMosaic.ValueIdx Cert.KernelIdeal

/-- The rows of squares of a signal block: P(r, m) = Σ_c x0(r, c, m)². -/
def sqRows (x0 : Vec Ideal S4x64x4096 .f32) : S4x4096.Idx → EReal :=
  fun j => ∑ c : Fin 64, x0 (ix3 (j 0) c (j 1)) * x0 (ix3 (j 0) c (j 1))

/-- What one grid point leaves in its output block. -/
def blockOut (x0 : Vec Ideal S4x64x4096 .f32) (x1 : Vec Ideal S1x64x4096 .f32) (xs0 : Vec Ideal S4x4096 .f32) :
    S1x1x4x4093.Idx → EReal :=
  fun y => Cert.Dtw.outChain (fun m => xs0 (ix2 (y 2) m)) (fun c m => x0 (ix3 (y 2) c m))
    (fun c m => x1 (ix3 ⟨0, Nat.one_pos⟩ c m)) (y 3)

end Cert.KernelIdeal.Rows

end
-- ==== Proof.LibBatchFold.lean ====
/-
  A batch split in groups, put back together.

  A result computed group by group as `[G, E, B, L]` (group g, feature e, member b of the group, position l) is brought to
  `[G, B, E, L]` by exchanging the two middle axes and then flattened to `[N, E, L]` with N = G · B: entry (n, e, l) of the
  flat array is entry (g, e, b, l) of the grouped one whenever n = g · B + b — the row-major position is the same number.
-/
import Idealize.ShloMosaic.Lib.ValueIdx
import Idealize.ShloMosaic.Lib.Pipeline.Value

noncomputable section

namespace Cert.BatchFold

open Idealize.ShloMosaic Idealize.ShloMosaic.ValueIdx

/-- The flattened, axis-exchanged array at (n, e, l) is the grouped array at (g, e, b, l), n = g · B + b. -/
theorem fold_apply {α : Type} {G E B L N : ℕ} (H : (⟨4, ![G, E, B, L]⟩ : Shape).Idx → α)
    (ht : (⟨4, ![G, E, B, L]⟩ : Shape).Transposes [0, 2, 1, 3] ⟨4, ![G, B, E, L]⟩)
    (hc : (⟨4, ![G, B, E, L]⟩ : Shape).ShapeCasts ⟨3, ![N, E, L]⟩)
    (g : Fin G) (e : Fin E) (b : Fin B) (l : Fin L) (n : Fin N) (hn : n.val = g.val * B + b.val) :
    shapeCast ⟨3, ![N, E, L]⟩ (transpose ⟨4, ![G, B, E, L]⟩ [0, 2, 1, 3] H ht) hc (ix3 n e l) = H (ix4 g e b l) := by
  rw [shapeCast_apply _ hc (ix3 n e l) (ix4 g b e l) (by
    rw [Shape.rowMajor_val_four, Shape.rowMajor_val_three]
    show ((g.val * B + b.val) * E + e.val) * L + l.val = (n.val * E + e.val) * L + l.val
    rw [hn])]
  exact transpose_apply _ H ht (ix4 g b e l) (ix4 g e b l) (fun a => by
    match a with
    | ⟨0, _⟩ => rfl
    | ⟨1, _⟩ => rfl
    | ⟨2, _⟩ => rfl
    | ⟨3, _⟩ => rfl)

end Cert.BatchFold

end
-- ==== Proof.DtwGrid.lean ====
/-
  From the blocks the grid points write to the result array, and the host operations after the region.

  Under the hypothesis that every grid point t writes the block the kernel's arithmetic describes (blockOut of its signal
  block, its template block and the rows of squares of its signal block):
  * point t = 5·g + e writes the entries (g, e, ·, ·) of the grouped result Hker [2, 5, 4, 4093], whose entry (g, e, b, l) is
    the kernel's number for signal row 4·g + b, template e, window l; the ten blocks cover the array, so the region leaves
    it holding Hker;
  * the host then exchanges the two middle axes and flattens (g, b) to n = 4·g + b: the flat result [8, 5, 4093] holds, at
    (n, e, l), the kernel's number for signal row n, template e, window l (Hout);
  * the two argument arrays are unchanged.
-/
import proofs.«169870_j18098992185357_2_alg».proof.Proof.DtwGridIdx
import proofs.«169870_j18098992185357_2_alg».proof.Proof.DtwBlock
import proofs.«169870_j18098992185357_2_alg».proof.Proof.LibBatchFold

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Grid

open Cert.KernelIdeal Cert.KernelIdeal.Gen Cert.KernelIdeal.Rows

variable (m : (ℓ : Loc nD τ sig) → Buf (Elt Ideal) ℓ) (ρ : Dev nD → PrngReg)

/-! ## The result array of the kernel, as one function of the two argument arrays -/

/-- Signal row 4·g + b: member b of group g. -/
def rowOf (g : Fin 2) (b : Fin 4) : Fin 8 := ⟨4 * g.val + b.val, by omega⟩

/-- The grouped result [2, 5, 4, 4093]: entry (g, e, b, l) is the kernel's number for signal row 4·g + b, template e and
    window l. -/
def Hker (X : S8x64x4096.Idx → EReal) (W : S64x4096x5.Idx → EReal) : S2x5x4x4093.Idx → EReal :=
  fun j => Cert.Dtw.outChain
    (fun mm => Cert.Dtw.dot (Cert.Dtw.rowX X (rowOf (j 0) (j 2))) (Cert.Dtw.rowX X (rowOf (j 0) (j 2))) mm mm)
    (Cert.Dtw.rowX X (rowOf (j 0) (j 2))) (Cert.Dtw.rowW W (j 1)) (j 3)

/-- The flat result [8, 5, 4093]: entry (n, e, l) is the kernel's number for signal row n, template e and window l. -/
def Hout (X : S8x64x4096.Idx → EReal) (W : S64x4096x5.Idx → EReal) : S8x5x4093.Idx → EReal :=
  fun i => Cert.Dtw.outChain
    (fun mm => Cert.Dtw.dot (Cert.Dtw.rowX X (i 0)) (Cert.Dtw.rowX X (i 0)) mm mm)
    (Cert.Dtw.rowX X (i 0)) (Cert.Dtw.rowW W (i 1)) (i 2)

/-- What a grid point writes, when its signal block is rows 4·g .. 4·g + 3 of X and its template block is template e of W:
    the entries (g, e, ·, ·) of the grouped result. -/
theorem blockOut_at (x0 : Vec Ideal S4x64x4096 .f32) (x1 : Vec Ideal S1x64x4096 .f32)
    (X : S8x64x4096.Idx → EReal) (W : S64x4096x5.Idx → EReal) (g : Fin 2) (e : Fin 5)
    (hx : ∀ (r : Fin 4) (ch : Fin 64) (mm : Fin 4096), x0 (ix3 r ch mm) = X (ix3 (rowOf g r) ch mm))
    (hd : ∀ (u : Fin 1) (ch : Fin 64) (mm : Fin 4096), x1 (ix3 u ch mm) = W (ix3 ch mm e))
    (y : S1x1x4x4093.Idx) :
    blockOut x0 x1 (sqRows x0) y = Hker X W (ix4 g e (y 2) (y 3)) := by
  have ha : (fun (c : Fin 64) (mm : Fin 4096) => x0 (ix3 (y 2) c mm)) = Cert.Dtw.rowX X (rowOf g (y 2)) :=
    funext fun c => funext fun mm => hx _ _ _
  have hdd : (fun (c : Fin 64) (mm : Fin 4096) => x1 (ix3 ⟨0, Nat.one_pos⟩ c mm)) = Cert.Dtw.rowW W e :=
    funext fun c => funext fun mm => hd _ _ _
  have hP : (fun mm : Fin 4096 => sqRows x0 (ix2 (y 2) mm))
      = fun mm => Cert.Dtw.dot (Cert.Dtw.rowX X (rowOf g (y 2))) (Cert.Dtw.rowX X (rowOf g (y 2))) mm mm := by
    funext mm
    rw [← ha]
    rfl
  show Cert.Dtw.outChain (fun mm : Fin 4096 => sqRows x0 (ix2 (y 2) mm)) (fun (c : Fin 64) (mm : Fin 4096) => x0 (ix3 (y 2) c mm))
      (fun (c : Fin 64) (mm : Fin 4096) => x1 (ix3 ⟨0, Nat.one_pos⟩ c mm)) (y 3) = _
  rw [hP, ha, hdd]
  rfl

variable (c : Dev nD)

/-- What point t writes back is block t of the grouped result. -/
theorem flushed_eq
    (hblk : ∀ t : Fin cfg0.N, (outsAt0 m c t.val t.isLt).1 = blockOut (iblk m c 0 t) (iblk m c 1 t) (sqRows (iblk m c 0 t)))
    (t : Fin cfg0.N) :
    (dats m 0 c).flushed 2 t
      = ((cfg0.win 2).blk t).view.read (Elt Ideal)
          (Hker (m ((c : Thread nD τ).loc main_arg0)) (m ((c : Thread nD τ).loc main_arg1))) := by
  have ht := t_lt t
  obtain ⟨-, -, -, -, -, -, e0, e1, e2, e3⟩ := idx_facts t
  show (cfg0.win 2).cut (grid0.coords t) ((dats m 0 c).after 2 t) = _
  rw [after0_2, hblk t]
  funext y
  show blockOut (iblk m c 0 t) (iblk m c 1 t) (sqRows (iblk m c 0 t)) y
    = Hker (m ((c : Thread nD τ).loc main_arg0)) (m ((c : Thread nD τ).loc main_arg1)) (((cfg0.win 2).blk t).view.emb y)
  rw [blockOut_at (iblk m c 0 t) (iblk m c 1 t) (m ((c : Thread nD τ).loc main_arg0)) (m ((c : Thread nD τ).loc main_arg1))
    ⟨t.val / 5, by omega⟩ ⟨t.val % 5, Nat.mod_lt _ (by decide)⟩ (fun r ch mm => iblk_x m c t r ch mm)
    (fun u ch mm => iblk_d m c t u ch mm) y]
  congr 1
  funext a
  apply Fin.ext
  have h0 : (y 0).val < 1 := (y 0).isLt
  have h1 : (y 1).val < 1 := (y 1).isLt
  match a with
  | ⟨0, _⟩ => show t.val / 5 = win0_2.index t (0 : Fin 4) * 1 + 1 * (y 0).val; rw [e0]; omega
  | ⟨1, _⟩ => show t.val % 5 = win0_2.index t (1 : Fin 4) * 1 + 1 * (y 1).val; rw [e1]; omega
  | ⟨2, _⟩ => show (y 2).val = win0_2.index t (2 : Fin 4) * 4 + 1 * (y 2).val; rw [e2]; omega
  | ⟨3, _⟩ => show (y 3).val = win0_2.index t (3 : Fin 4) * 4093 + 1 * (y 3).val; rw [e3]; omega

/-- An index of the grouped result is in point t's block iff each coordinate is in the block's range on its axis. -/
theorem mem_blk (t : Fin cfg0.N) (i : S2x5x4x4093.Idx) :
    i ∈ ((cfg0.win 2).blk t).view.set ↔ ∀ a : Fin 4, win0_2.index t a * S1x1x4x4093.size a ≤ (i a).val
      ∧ (i a).val < win0_2.index t a * S1x1x4x4093.size a + S1x1x4x4093.size a := by
  show i ∈ ((View.whole main_v1).slice (win0_2.rect t)).set ↔ _
  rw [View.set_slice_whole, Rect.mem_set_unit]
  exact Iff.rfl

/-- Entry (g, e, ·, ·) is in the block of point 5·g + e: the blocks cover the array. -/
theorem cover (i : S2x5x4x4093.Idx) :
    ∃ t : Fin cfg0.N, (cfg0.win 2).flush t = true ∧ i ∈ ((cfg0.win 2).blk t).view.set := by
  have h0 : (i 0).val < 2 := (i 0).isLt
  have h1 : (i 1).val < 5 := (i 1).isLt
  have h2 : (i 2).val < 4 := (i 2).isLt
  have h3 : (i 3).val < 4093 := (i 3).isLt
  let t : Fin cfg0.N := ⟨5 * (i 0).val + (i 1).val, by rw [show cfg0.N = 10 from N_0]; omega⟩
  have htv : t.val = 5 * (i 0).val + (i 1).val := rfl
  obtain ⟨-, -, -, -, -, -, e0, e1, e2, e3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; rw [e0, htv]; omega
  | ⟨1, _⟩ => show win0_2.index t (1 : Fin 4) * 1 ≤ (i 1).val ∧ (i 1).val < win0_2.index t (1 : Fin 4) * 1 + 1; rw [e1, htv]; omega
  | ⟨2, _⟩ => show win0_2.index t (2 : Fin 4) * 4 ≤ (i 2).val ∧ (i 2).val < win0_2.index t (2 : Fin 4) * 4 + 4; rw [e2]; omega
  | ⟨3, _⟩ => show win0_2.index t (3 : Fin 4) * 4093 ≤ (i 3).val ∧ (i 3).val < win0_2.index t (3 : Fin 4) * 4093 + 4093; rw [e3]; omega

/-- The result array of the region ends holding the grouped result. -/
theorem final
    (hblk : ∀ t : Fin cfg0.N, (outsAt0 m c t.val t.isLt).1 = blockOut (iblk m c 0 t) (iblk m c 1 t) (sqRows (iblk m c 0 t))) :
    (dats m 0 c).arrAt 2 cfg0.N
    = Hker (m ((c : Thread nD τ).loc main_arg0)) (m ((c : Thread nD τ).loc main_arg1)) :=
  (dats m 0 c).arrAt_eq_of_cover 2 (Hker (m ((c : Thread nD τ).loc main_arg0)) (m ((c : Thread nD τ).loc main_arg1)))
    (fun t _ => flushed_eq m c hblk t) (cover)

/-! ## The host operations after the region, and the run -/

/-- Group n / 4, member n % 4 is row n. -/
theorem rowOf_divmod (n : Fin 8) : rowOf ⟨n.val / 4, by omega⟩ ⟨n.val % 4, Nat.mod_lt _ (by decide)⟩ = n :=
  Fin.ext (by show 4 * (n.val / 4) + n.val % 4 = n.val; omega)

/-- The grouped result with its two middle axes exchanged and the first two flattened is the flat result. -/
theorem fold_Hker (X : S8x64x4096.Idx → EReal) (W : S64x4096x5.Idx → EReal)
    (ht : S2x5x4x4093.Transposes [0, 2, 1, 3] S2x4x5x4093) (hc : S2x4x5x4093.ShapeCasts S8x5x4093) :
    shapeCast S8x5x4093 (transpose S2x4x5x4093 [0, 2, 1, 3] (Hker X W) ht) hc = Hout X W := by
  funext i
  obtain ⟨n, e, l, rfl⟩ : ∃ (n : Fin 8) (e : Fin 5) (l : Fin 4093), i = ix3 n e l := ⟨i 0, i 1, i 2, eq_ix3 i⟩
  rw [Cert.BatchFold.fold_apply (Hker X W) ht hc ⟨n.val / 4, by omega⟩ e ⟨n.val % 4, Nat.mod_lt _ (by decide)⟩ l n
    (by show n.val = n.val / 4 * 4 + n.val % 4; omega)]
  show Cert.Dtw.outChain
      (fun mm => Cert.Dtw.dot (Cert.Dtw.rowX X (rowOf ⟨n.val / 4, _⟩ ⟨n.val % 4, _⟩)) (Cert.Dtw.rowX X (rowOf ⟨n.val / 4, _⟩ ⟨n.val % 4, _⟩)) mm mm)
      (Cert.Dtw.rowX X (rowOf ⟨n.val / 4, _⟩ ⟨n.val % 4, _⟩)) (Cert.Dtw.rowW W e) l = _
  rw [rowOf_divmod]
  rfl

/-- After the host operations that follow the region the flat result array holds the flat result. -/
theorem tail_v3
    (hblk : ∀ t : Fin cfg0.N, (outsAt0 m c t.val t.isLt).1 = blockOut (iblk m c 0 t) (iblk m c 1 t) (sqRows (iblk m c 0 t))) :
    Pipeline.afterTail₀ cfgs (dats m) 0 (V0 m) [hostOps1] c main_v3
    = Hout (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2, final m c hblk]
  exact fold_Hker _ _ _ _

end Cert.KernelIdeal.Grid

namespace Cert.KernelIdeal.Grid

open Cert.KernelIdeal Cert.KernelIdeal.Gen Cert.KernelIdeal.Rows

variable (m : (ℓ : Loc nD τ sig) → Buf (Elt Ideal) ℓ) (ρ : Dev nD → PrngReg)

/-- The run, read: when every grid point writes the block the kernel's arithmetic describes, the flat result array ends
    holding, at (n, e, l), the kernel's number for signal row n, template e and window l, and the two arguments are unchanged. -/
theorem run
    (hblk : ∀ (c : Dev nD) (t : Fin cfg0.N),
      (outsAt0 m c t.val t.isLt).1 = blockOut (iblk m c 0 t) (iblk m c 1 t) (sqRows (iblk m c 0 t))) :
    θ_run defs (onTc (τ := τ) (main (F := Ideal))) ⟨m, fun _ => 0, ρ⟩ fun r => ∀ c : Dev nD,
      r.2.mem ((c : Thread nD τ).loc main_v3)
        = Hout (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_v3 m c (hblk c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Grid

end
-- ==== Proof.DtwAlgebra.lean ====
/-
  The two arrangements of the cost and of the weighted mean agree when every entry is a real number.

  On the extended reals neither the expansion (a − d)² = a² + d² − 2·a·d nor the exchange of a sum with a product holds in
  general (both fail at ±∞). With every entry real, each side is the image of one real number under the inclusion ℝ → EReal
  (which commutes with +, −, ·, finite sums and sums along a list), and the two real numbers are equal:
  * cost: the expansion termwise, then Σ_c over the channels and the sum along the path exchange;
  * mean: the weights exp(−T k − M) are positive reals, so the normaliser S = Σ_j w j is a nonzero real, x / S = x · (1/S),
    and Σ_k T k · (w k · (1/S)) = (Σ_k T k · w k) · (1/S).
-/
import proofs.«169870_j18098992185357_2_alg».proof.Proof.DtwSpec

noncomputable section

open scoped BigOperators

namespace Cert.Dtw

open Idealize.ShloMosaic

/-! ## Real numbers inside the extended reals: sums along a list -/

/-- The inclusion of ℝ commutes with the sum of a list. -/
theorem coe_list_sum {ι : Type} (L : List ι) (f : ι → ℝ) :
    (((L.map f).sum : ℝ) : EReal) = (L.map fun x => (f x : EReal)).sum := by
  induction L with
  | nil => simp
  | cons x L ih => simp only [List.map_cons, List.sum_cons, EReal.coe_add, ih]

/-- The inclusion of ℝ commutes with a finite sum. -/
theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In ℝ: a sum along a list of sums over a finite type is the sum over the type of the sums along the list. -/
theorem list_sum_fsum {ι κ : Type} [Fintype κ] (L : List ι) (f : ι → κ → ℝ) :
    (L.map fun p => ∑ c, f p c).sum = ∑ c, (L.map fun p => f p c).sum := by
  induction L with
  | nil => simp
  | cons x L ih => simp only [List.map_cons, List.sum_cons, ih, Finset.sum_add_distrib]

/-- In ℝ: the expanded square, summed over the channels. -/
theorem real_step {κ : Type} [Fintype κ] (x y : κ → ℝ) :
    ((∑ c, x c * x c) + (∑ c, y c * y c)) - 2 * (∑ c, x c * y c) = ∑ c, (x c - y c) * (x c - y c) := by
  rw [Finset.mul_sum, ← Finset.sum_add_distrib, ← Finset.sum_sub_distrib]
  exact Finset.sum_congr rfl fun c _ => by ring

section Row

variable (a d : Fin 64 → Fin 4096 → EReal) (l : Fin 4093)

/-- With every entry real, a path's cost summed channel by channel is the real number computed the same way. -/
theorem costR_coe (a' d' : Fin 64 → Fin 4096 → ℝ) (ha : ∀ c m, a c m = (a' c m : EReal)) (hd : ∀ c m, d c m = (d' c m : EReal))
    (k : Fin 9) :
    costR a d l k
      = ((∑ c : Fin 64, ((path k).map fun p =>
          (a' c (at4 l p.1) - d' c (at4 l p.2)) * (a' c (at4 l p.1) - d' c (at4 l p.2))).sum : ℝ) : EReal) := by
  unfold costR sq
  simp only [ha, hd, ← EReal.coe_sub, ← EReal.coe_mul]
  rw [coe_fsum]
  exact Finset.sum_congr rfl fun c _ => (coe_list_sum _ _).symm

/-- With every entry real, a path's cost from the expanded steps is the real number computed the same way. -/
theorem costK_coe (a' d' : Fin 64 → Fin 4096 → ℝ) (ha : ∀ c m, a c m = (a' c m : EReal)) (hd : ∀ c m, d c m = (d' c m : EReal))
    (k : Fin 9) :
    costK a d l k
      = ((((path k).map fun p =>
          ((∑ c : Fin 64, a' c (at4 l p.1) * a' c (at4 l p.1)) + (∑ c : Fin 64, d' c (at4 l p.2) * d' c (at4 l p.2)))
            - 2 * (∑ c : Fin 64, a' c (at4 l p.1) * d' c (at4 l p.2))).sum : ℝ) : EReal) := by
  have h2 : (2 : EReal) = ((2 : ℝ) : EReal) := rfl
  unfold costK stepK dot
  simp only [ha, hd, h2, ← EReal.coe_mul, ← coe_fsum, ← EReal.coe_add, ← EReal.coe_sub]
  exact (coe_list_sum _ _).symm

end Row

/-- With every entry real the two arrangements of a path's cost agree: (a − d)² = a² + d² − 2·a·d, and the sums over the
    channels and along the path exchange. -/
theorem costK_eq_costR (a d : Fin 64 → Fin 4096 → EReal) (ha : ∀ c m, ∃ r : ℝ, a c m = (r : EReal))
    (hd : ∀ c m, ∃ r : ℝ, d c m = (r : EReal)) (l : Fin 4093) (k : Fin 9) : costK a d l k = costR a d l k := by
  choose a' ha' using ha
  choose d' hd' using hd
  rw [costK_coe a d l a' d' ha' hd' k, costR_coe a d l a' d' ha' hd' k]
  congr 1
  rw [← list_sum_fsum]
  congr 1
  refine List.map_congr_left fun p _ => ?_
  exact real_step (fun c => a' c (at4 l p.1)) (fun c => d' c (at4 l p.2))

/-- With every entry real a path's cost is a real number. -/
theorem costR_real (a d : Fin 64 → Fin 4096 → EReal) (ha : ∀ c m, ∃ r : ℝ, a c m = (r : EReal))
    (hd : ∀ c m, ∃ r : ℝ, d c m = (r : EReal)) (l : Fin 4093) (k : Fin 9) : ∃ r : ℝ, costR a d l k = (r : EReal) := by
  choose a' ha' using ha
  choose d' hd' using hd
  exact ⟨_, costR_coe a d l a' d' ha' hd' k⟩

section Mix

variable (T : Fin 9 → EReal) (M : EReal)

/-- The largest of finitely many (at least one) negated real costs is a real number. -/
theorem peak_real (hT : ∀ k, ∃ r : ℝ, T k = (r : EReal)) : ∃ r : ℝ, peak T = (r : EReal) := by
  obtain ⟨i, _, hi⟩ := Finset.exists_mem_eq_sup (Finset.univ : Finset (Fin 9)) ⟨0, Finset.mem_univ _⟩ fun k => -T k
  obtain ⟨r, hr⟩ := hT i
  refine ⟨-r, ?_⟩
  unfold peak
  rw [hi, hr, EReal.coe_neg]

/-- With real costs and a real shift every weight is a positive real. -/
theorem weight_coe (T' : Fin 9 → ℝ) (M' : ℝ) (hT : ∀ k, T k = (T' k : EReal)) (hM : M = (M' : EReal)) (k : Fin 9) :
    weight T M k = ((Real.exp (-T' k - M') : ℝ) : EReal) := by
  unfold weight
  rw [hT, hM, ← EReal.coe_neg, ← EReal.coe_sub, Ideal.exp_coe]

/-- With real costs and a real shift the normaliser is a positive real, and dividing once at the end is normalising each
    weight first. -/
theorem mixK_eq_mixR (hT : ∀ k, ∃ r : ℝ, T k = (r : EReal)) (hM : ∃ r : ℝ, M = (r : EReal)) : mixK T M = mixR T M := by
  choose T' hT' using hT
  obtain ⟨M', hM'⟩ := hM
  have hS : (∑ j : Fin 9, Real.exp (-T' j - M')) ≠ 0 :=
    ne_of_gt (Finset.sum_pos (fun j _ => Real.exp_pos _) ⟨0, Finset.mem_univ _⟩)
  unfold mixK mixR
  simp only [weight_coe T M T' M' hT' hM', ← coe_fsum, Ideal.div_coe hS, hT', ← EReal.coe_mul]
  congr 1
  rw [Finset.sum_mul]
  exact Finset.sum_congr rfl fun k _ => by ring

end Mix

/-- With every entry real the two arrangements of the result agree. -/
theorem outK_eq_outR (a d : Fin 64 → Fin 4096 → EReal) (ha : ∀ c m, ∃ r : ℝ, a c m = (r : EReal))
    (hd : ∀ c m, ∃ r : ℝ, d c m = (r : EReal)) (l : Fin 4093) : outK a d l = outR a d l := by
  have h : costK a d l = costR a d l := funext fun k => costK_eq_costR a d ha hd l k
  unfold outK outR
  rw [h]
  exact mixK_eq_mixR _ _ (fun k => costR_real a d ha hd l k) (peak_real _ fun k => costR_real a d ha hd l k)

/-! ## The whole array -/

/-- A signal row of an array of reals is a row of reals. -/
theorem rowX_real (X : (⟨3, ![8, 64, 4096]⟩ : Shape).Idx → EReal) (hX : ∀ i, ∃ r : ℝ, X i = (r : EReal)) (b : Fin 8) :
    ∀ c m, ∃ r : ℝ, rowX X b c m = (r : EReal) := fun c m => hX (ValueIdx.ix3 b c m)

/-- A template of an array of reals is a template of reals. -/
theorem rowW_real (W : (⟨3, ![64, 4096, 5]⟩ : Shape).Idx → EReal) (hW : ∀ i, ∃ r : ℝ, W i = (r : EReal)) (e : Fin 5) :
    ∀ c m, ∃ r : ℝ, rowW W e c m = (r : EReal) := fun c m => hW (ValueIdx.ix3 c m e)

/-- With every entry of both arrays real, each entry of the result is also the kernel arrangement's value. -/
theorem G_eq_outK (X : (⟨3, ![8, 64, 4096]⟩ : Shape).Idx → EReal) (W : (⟨3, ![64, 4096, 5]⟩ : Shape).Idx → EReal)
    (hX : ∀ i, ∃ r : ℝ, X i = (r : EReal)) (hW : ∀ i, ∃ r : ℝ, W i = (r : EReal)) (i : (⟨3, ![8, 5, 4093]⟩ : Shape).Idx) :
    G X W i = outK (rowX X (i 0)) (rowW W (i 1)) (i 2) :=
  (outK_eq_outR _ _ (rowX_real X hX (i 0)) (rowW_real W hW (i 1)) (i 2)).symm

end Cert.Dtw

end
-- ==== Proof.DtwChainLaws.lean ====
/-
  The kernel's order of operations gives the specification's numbers.

  Addition and maximum on the extended reals are commutative and associative everywhere, and 0 − x = −x, so no finiteness
  is needed for: a left-nested sum of a path's steps is the sum along the path; the left-nested maximum of the nine
  0 − T k is the supremum of the −T k; the two left-nested sums of the weighted mean are the sums over the nine indices.
  Only the last statement, which passes to the reference arrangement, needs every entry real.
-/
import proofs.«169870_j18098992185357_2_alg».proof.Proof.DtwChain
import proofs.«169870_j18098992185357_2_alg».proof.Proof.DtwAlgebra

noncomputable section

open scoped BigOperators

namespace Cert.Dtw

open Idealize.ShloMosaic

/-! ## Nine terms written out -/

/-- A sum over the nine indices, written out left-nested. -/
theorem sum9 {M : Type} [AddCommMonoid M] (f : Fin 9 → M) :
    ∑ k : Fin 9, f k = (((((((f 0 + f 1) + f 2) + f 3) + f 4) + f 5) + f 6) + f 7) + f 8 := by
  rw [Fin.sum_univ_castSucc, Fin.sum_univ_eight]
  rfl

/-- The supremum over the nine indices, written out as a left-nested maximum. -/
theorem sup9 (f : Fin 9 → EReal) :
    Finset.univ.sup f = max (max (max (max (max (max (max (max (f 0) (f 1)) (f 2)) (f 3)) (f 4)) (f 5)) (f 6)) (f 7)) (f 8) := by
  apply le_antisymm
  · refine Finset.sup_le fun k _ => ?_
    fin_cases k <;> simp [le_max_iff]
  · repeat' apply max_le
    all_goals exact Finset.le_sup (f := f) (Finset.mem_univ _)

/-! ## The kernel's order of operations gives the specification's numbers -/

/-- 0 − x is −x. -/
theorem negC_eq (T : Fin 9 → EReal) (k : Fin 9) : negC T k = -T k := by
  unfold negC
  rw [sub_eq_add_neg, zero_add]

/-- A left-nested sum of the steps of a path is the sum along the path. -/
theorem chainCost_eq (a d : Fin 64 → Fin 4096 → EReal) (l : Fin 4093) (k : Fin 9) :
    chainCost (stepK a d l) k = costK a d l k := by
  unfold costK
  fin_cases k <;> simp [chainCost, path, add_assoc]

/-- With the cached row of squares P(m) = Σ_c a(c, m)² a step's cost is the expanded step of the specification. -/
theorem stepP_dot (a d : Fin 64 → Fin 4096 → EReal) (l : Fin 4093) (i j : Fin 4) :
    stepP (fun m => dot a a m m) a d l i j = stepK a d l i j := rfl

/-- The left-nested maximum of the nine 0 − T k is the largest negated cost. -/
theorem chainPeak_eq (T : Fin 9 → EReal) : chainPeak T = peak T := by
  unfold chainPeak peak
  rw [sup9]
  simp only [negC_eq]

/-- The kernel's weight is the specification's weight at the shift peak. -/
theorem chainW_eq (T : Fin 9 → EReal) (k : Fin 9) : chainW T k = weight T (peak T) k := by
  unfold chainW weight
  rw [negC_eq, chainPeak_eq]

/-- The left-nested weighted mean is the specification's one-division mean at the shift peak. -/
theorem chainMix_eq (T : Fin 9 → EReal) : chainMix T = mixK T (peak T) := by
  unfold chainMix mixK
  rw [sum9, sum9]
  simp only [chainW_eq]

/-- The kernel's number is the specification's kernel arrangement. -/
theorem outChain_eq_outK (a d : Fin 64 → Fin 4096 → EReal) (l : Fin 4093) :
    outChain (fun m => dot a a m m) a d l = outK a d l := by
  have h : chainCost (stepP (fun m => dot a a m m) a d l) = costK a d l := funext fun k => chainCost_eq a d l k
  unfold outChain outK
  rw [h, chainMix_eq]

/-- With every entry real the kernel's number is the reference arrangement. -/
theorem outChain_eq_outR (a d : Fin 64 → Fin 4096 → EReal) (ha : ∀ c m, ∃ r : ℝ, a c m = (r : EReal))
    (hd : ∀ c m, ∃ r : ℝ, d c m = (r : EReal)) (l : Fin 4093) : outChain (fun m => dot a a m m) a d l = outR a d l :=
  (outChain_eq_outK a d l).trans (outK_eq_outR a d ha hd l)

end Cert.Dtw

end
-- ==== Proof.DtwGridSpec.lean ====
/-
  The kernel's flat result is the specification's array when every entry of both arguments is a real number: entry by
  entry, the kernel's order of operations gives the reference arrangement.
-/
import proofs.«169870_j18098992185357_2_alg».proof.Proof.DtwGrid
import proofs.«169870_j18098992185357_2_alg».proof.Proof.DtwChainLaws

noncomputable section

open Idealize.ShloMosaic

namespace Cert.KernelIdeal.Grid

open Cert.KernelIdeal

/-- With every entry of both arguments real, the kernel's flat result is the specification's array. -/
theorem Hout_eq_G (X : S8x64x4096.Idx → EReal) (W : S64x4096x5.Idx → EReal)
    (hX : ∀ i, ∃ r : ℝ, X i = (r : EReal)) (hW : ∀ i, ∃ r : ℝ, W i = (r : EReal)) :
    Hout X W = Cert.Dtw.G X W :=
  funext fun i =>
    Cert.Dtw.outChain_eq_outR _ _ (Cert.Dtw.rowX_real X hX (i 0)) (Cert.Dtw.rowW_real W hW (i 1)) (i 2)

end Cert.KernelIdeal.Grid

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.DtwFinite.lean ====
/-
  The finiteness precondition read back: if the predicate all(|x| < +inf) ∧ all(|w| < +inf) holds of the two input arrays,
  every entry of both is a real number (neither +∞ nor −∞).
-/
import proofs.«169870_j18098992185357_2_alg».proof.Pre_finite_inputs
import proofs.«169870_j18098992185357_2_alg».proof.Proof.Gen.Pre_finite_inputs
import proofs.«169870_j18098992185357_2_alg».proof.Proof.LibFinite

noncomputable section

namespace Cert.Dtw

open Idealize.ShloMosaic Idealize.ShloMosaic.ValueIdx

/-- The precondition all(|x| < +inf) ∧ all(|w| < +inf), stated as "the printed predicate is 1", gives: every entry of both
    arrays is a real number. The predicate's value at its one index is the "and" of the two reductions; each is 1, and a
    reduction by "and" over all axes that is 1 met a 1 at every entry: |x| < ⊤ there, so the entry is neither ⊤ nor ⊥. -/
theorem real_of_pre [Cert.Pre_finite_inputs.Facts] (X : FVec Ideal Cert.Pre_finite_inputs.S8x64x4096 .f32)
    (W : FVec Ideal Cert.Pre_finite_inputs.S64x4096x5 .f32)
    (h : Cert.Pre_finite_inputs.fn (F := Ideal) X W = fun _ => 1#1) :
    (∀ i, ∃ r : ℝ, X i = (r : EReal)) ∧ (∀ i, ∃ r : ℝ, W i = (r : EReal)) := by
  have h0 := congrFun h ix0
  dsimp only [Cert.Pre_finite_inputs.fn] at h0
  obtain ⟨h1, h2⟩ := IntOp.andi_eq_one.1 h0
  exact ⟨Cert.LibFinite.real_of_all X _ _ _ _ h1, Cert.LibFinite.real_of_all W _ _ _ _ h2⟩

end Cert.Dtw

end
-- ==== Proof.LibLaneDot.lean ====
/-
  Column sums of a product of two matrices, each cut along its columns.

  For `A, D : [C, N]` and offsets `p, q`, the row vector Σ_c A(c, p + m) · D(c, q + m) (m < M) is what a sum down the
  rows of the entrywise product of the column slices `A[:, p : p+M]` and `D[:, q : q+M]` computes; recast as a
  `[1, M]` row and read at (0, m) it is that sum. Also: a `[1, N]` row cut to the columns `o .. o+M` read at (0, l).
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LaneDot

open Idealize.ShloMosaic Idealize.ShloMosaic.ValueIdx

/-- A sum down the rows of a `[C, M]` array, recast from `[M]` to the row `[1, M]`, read at (u, m): Σ_c X(c, m). -/
theorem colSum_apply {C M : ℕ} (X : (⟨2, ![C, M]⟩ : Shape).Idx → EReal)
    (h : (⟨2, ![C, M]⟩ : Shape).Reduces [0] ⟨1, ![M]⟩)
    (hc : (⟨1, ![M]⟩ : Shape).ShapeCasts ⟨2, ![1, M]⟩) (u : Fin 1) (m : Fin M) :
    shapeCast ⟨2, ![1, M]⟩ (Ideal.reduceAdd h X) hc (ix2 u m) = ∑ c : Fin C, X (ix2 c m) := by
  rw [shapeCast_a_1a_apply, Ideal.reduceAdd_single]
  refine Finset.sum_congr rfl fun c _ => congrArg X ?_
  funext a
  match a with
  | ⟨0, _⟩ => rfl
  | ⟨1, _⟩ => rfl

/-- The entrywise product of the column slices `A[:, p : p+M]` and `D[:, q : q+M]`, at (c, m). -/
theorem sliceMul_apply {C N M : ℕ} (A D : FVec Ideal (⟨2, ![C, N]⟩ : Shape) .f32) (p q : ℕ)
    (hp : (⟨2, ![C, N]⟩ : Shape).Slices ![0, p] ⟨2, ![C, M]⟩) (hq : (⟨2, ![C, N]⟩ : Shape).Slices ![0, q] ⟨2, ![C, M]⟩)
    (c : Fin C) (m : Fin M) :
    mulf (extractStridedSlice ⟨2, ![C, M]⟩ ![0, p] A hp) (extractStridedSlice ⟨2, ![C, M]⟩ ![0, q] D hq) (ix2 c m)
      = A (ix2 c ⟨p + m.val, Nat.lt_of_lt_of_le (Nat.add_lt_add_left m.isLt p) (hp.2 1)⟩)
        * D (ix2 c ⟨q + m.val, Nat.lt_of_lt_of_le (Nat.add_lt_add_left m.isLt q) (hq.2 1)⟩) := by
  show extractStridedSlice _ _ A hp (ix2 c m) * extractStridedSlice _ _ D hq (ix2 c m) = _
  rw [slice2_axis1_eq, slice2_axis1_eq]

end Cert.LaneDot

end
-- ==== Proof.LibRowRect.lean ====
/-
  Reading one row of a stack through a unit-stride rectangle, and small facts beside it.

  The rectangle of row `r` of a `[R, N]` array (offset (r, 0), extent (1, N)) sends its own index (u, m) to the array index
  (r, m), so a load through it reads the array there; the same for slab `r` of a `[R, C, N]` array. A `[1, L]` row recast to `[L]` and then to `[1, 1, 1, L]` reads at
  (·, ·, ·, l) the row at (0, l). The float word 0x40000000 is the number 2.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowRect

open Idealize.ShloMosaic Idealize.ShloMosaic.ValueIdx

/-- A row rectangle that fits names a row of the array. -/
theorem row_lt2 {R N r : ℕ}
    (inb : ∀ a, (![r, 0] : Fin 2 → ℕ) a + (![1, N] : Fin 2 → ℕ) a ≤ (⟨2, ![R, N]⟩ : Shape).size a) : r < R := by
  have h := inb 0
  exact Nat.lt_of_succ_le h

/-- A slab rectangle that fits names a slab of the array. -/
theorem row_lt3 {R C N r : ℕ}
    (inb : ∀ a, (![r, 0, 0] : Fin 3 → ℕ) a + (![1, C, N] : Fin 3 → ℕ) a ≤ (⟨3, ![R, C, N]⟩ : Shape).size a) : r < R := by
  have h := inb 0
  exact Nat.lt_of_succ_le h

/-- The rectangle of row `r` of a `[R, N]` array sends its own index (u, m) to (r, m). -/
theorem idx_row2 {R N : ℕ} (r : ℕ)
    (inb : ∀ a, (![r, 0] : Fin 2 → ℕ) a + (![1, N] : Fin 2 → ℕ) a ≤ (⟨2, ![R, N]⟩ : Shape).size a)
    (u : Fin 1) (m : Fin N) :
    (Rect.unit (s := ⟨2, ![R, N]⟩) ![r, 0] ![1, N] inb).idx (ix2 u m) = ix2 ⟨r, row_lt2 inb⟩ m := by
  funext a
  apply Fin.ext
  match a with
  | ⟨0, _⟩ => show r + 1 * u.val = r; omega
  | ⟨1, _⟩ => show 0 + 1 * m.val = m.val; omega

/-- The rectangle of slab `r` of a `[R, C, N]` array sends its own index (u, c, m) to (r, c, m). -/
theorem idx_row3 {R C N : ℕ} (r : ℕ)
    (inb : ∀ a, (![r, 0, 0] : Fin 3 → ℕ) a + (![1, C, N] : Fin 3 → ℕ) a ≤ (⟨3, ![R, C, N]⟩ : Shape).size a)
    (u : Fin 1) (c : Fin C) (m : Fin N) :
    (Rect.unit (s := ⟨3, ![R, C, N]⟩) ![r, 0, 0] ![1, C, N] inb).idx (ix3 u c m) = ix3 ⟨r, row_lt3 inb⟩ c m := by
  funext a
  apply Fin.ext
  match a with
  | ⟨0, _⟩ => show r + 1 * u.val = r; omega
  | ⟨1, _⟩ => show 0 + 1 * c.val = c.val; omega
  | ⟨2, _⟩ => show 0 + 1 * m.val = m.val; omega

/-- A `[1, L]` row recast to `[L]` and then to `[1, 1, 1, L]`, read at (·, ·, ·, l): the row at (0, l). -/
theorem rowCast_apply {α : Type} {L : ℕ} (V : (⟨2, ![1, L]⟩ : Shape).Idx → α)
    (h1 : (⟨2, ![1, L]⟩ : Shape).ShapeCasts ⟨1, ![L]⟩) (h2 : (⟨1, ![L]⟩ : Shape).ShapeCasts ⟨4, ![1, 1, 1, L]⟩)
    (u0 u1 u2 : Fin 1) (l : Fin L) :
    shapeCast ⟨4, ![1, 1, 1, L]⟩ (shapeCast ⟨1, ![L]⟩ V h1) h2 (ix4 u0 u1 u2 l) = V (ix2 (0 : Fin 1) l) := by
  rw [shapeCast_apply _ h2 (ix4 u0 u1 u2 l) (ix1 l) (by
    rw [Shape.rowMajor_val_one, Shape.rowMajor_val_four]
    have h0 : u0.val = 0 := by omega
    have h1' : u1.val = 0 := by omega
    have h2' : u2.val = 0 := by omega
    show l.val = ((u0.val * 1 + u1.val) * 1 + u2.val) * L + l.val
    rw [h0, h1', h2']; simp)]
  exact shapeCast_1a_a_apply V h1 l

/-- The float word of 2.0 denotes the number 2. -/
theorem ofBits_two_real : Ideal.ofBits .f32 0x40000000#32 = ((2 : ℝ) : EReal) := by
  simp [Ideal.ofBits, Ideal.ieee, -EReal.coe_mul]; norm_num

theorem ofBits_two : Ideal.ofBits .f32 0x40000000#32 = (2 : EReal) := by
  rw [ofBits_two_real]; rfl

/-- The float word of +0.0 denotes 0. -/
theorem ofBits_zero : Ideal.ofBits .f32 0x00000000#32 = (0 : EReal) := by
  simp [Ideal.ofBits, Ideal.ieee]

/-- Offsets add up: a + (b + l) = (a + b) + l. -/
theorem add_add_left (a b l : ℕ) : a + (b + l) = (a + b) + l := (Nat.add_assoc a b l).symm

/-- The exponential of a vector, entry by entry. -/
theorem exp_apply {s : Shape} {φ : FTy} (a : FVec Ideal s φ) (i : s.Idx) : exp a i = Ideal.exp (a i) := rfl

end Cert.RowRect

end
-- ==== Proof.LibRowStores.lean ====
/-
  Four row stores into a `[4, N]` buffer, read back.

  A buffer `[4, N]` is filled by four stores, one per row, row 0 first (so the list of stores, newest first, names the rows
  3, 2, 1, 0). What the buffer then holds at (r, m) is what the store of row `r` wrote at (0, m): the later stores touch
  other rows only.
-/
import Idealize.ShloMosaic.Lib.ValueIdx
import Idealize.ShloMosaic.Lib.Pipeline.Value
import proofs.«169870_j18098992185357_2_alg».proof.Proof.LibRowRect

noncomputable section

namespace Cert.RowStores

open Idealize.ShloMosaic Idealize.ShloMosaic.ValueIdx

variable {Val : EltTy → Type} {e : EltTy} [∀ e, Nonempty (Val e)] {N : ℕ}

/-- Entry (r, m) lies outside the rectangle of another row `r'`. -/
theorem not_mem_row (r r' : ℕ) (hr : r < 4) (hne : r ≠ r')
    (inb : ∀ a, (![r', 0] : Fin 2 → ℕ) a + (![1, N] : Fin 2 → ℕ) a ≤ (⟨2, ![4, N]⟩ : Shape).size a) (m : Fin N) :
    ix2 (⟨r, hr⟩ : Fin 4) m ∉ (Rect.unit (s := ⟨2, ![4, N]⟩) ![r', 0] ![1, N] inb).set := by
  rw [Rect.mem_set_unit]
  intro h
  have h0 := h 0
  have h0' : r' ≤ r ∧ r < r' + 1 := h0
  omega

/-- Under the newest store, made through the rectangle of row `r`, entry (r, m) holds its payload at (0, m). -/
theorem canon_newest (r : ℕ)
    (inb : ∀ a, (![r, 0] : Fin 2 → ℕ) a + (![1, N] : Fin 2 → ℕ) a ≤ (⟨2, ![4, N]⟩ : Shape).size a)
    (w : (⟨2, ![1, N]⟩ : Shape).Idx → Val e) (L : List (View.Piece Val (⟨2, ![4, N]⟩ : Shape) e)) (hr : r < 4) (m : Fin N) :
    View.canon (⟨Rect.unit (s := ⟨2, ![4, N]⟩) ![r, 0] ![1, N] inb, w⟩ :: L) (ix2 (⟨r, hr⟩ : Fin 4) m) = w (ix2 (0 : Fin 1) m) := by
  have h := View.canon_cons_emb (Val := Val) (Rect.unit (s := ⟨2, ![4, N]⟩) ![r, 0] ![1, N] inb) w L (ix2 (0 : Fin 1) m)
  rwa [show (Rect.unit (s := ⟨2, ![4, N]⟩) ![r, 0] ![1, N] inb).emb (ix2 (0 : Fin 1) m) = ix2 (⟨r, hr⟩ : Fin 4) m from
    Cert.RowRect.idx_row2 r inb 0 m] at h

/-- A store through the rectangle of another row is passed over. -/
theorem canon_skip (r r' : ℕ) (hr : r < 4) (hne : r ≠ r')
    (inb : ∀ a, (![r', 0] : Fin 2 → ℕ) a + (![1, N] : Fin 2 → ℕ) a ≤ (⟨2, ![4, N]⟩ : Shape).size a)
    (w : (⟨2, ![1, N]⟩ : Shape).Idx → Val e) (L : List (View.Piece Val (⟨2, ![4, N]⟩ : Shape) e)) (m : Fin N) :
    View.canon (⟨Rect.unit (s := ⟨2, ![4, N]⟩) ![r', 0] ![1, N] inb, w⟩ :: L) (ix2 (⟨r, hr⟩ : Fin 4) m)
      = View.canon L (ix2 (⟨r, hr⟩ : Fin 4) m) :=
  View.canon_cons_of_not_mem _ L (not_mem_row r r' hr hne inb m)

variable (i3 : ∀ a, (![3, 0] : Fin 2 → ℕ) a + (![1, N] : Fin 2 → ℕ) a ≤ (⟨2, ![4, N]⟩ : Shape).size a)
  (i2 : ∀ a, (![2, 0] : Fin 2 → ℕ) a + (![1, N] : Fin 2 → ℕ) a ≤ (⟨2, ![4, N]⟩ : Shape).size a)
  (i1 : ∀ a, (![1, 0] : Fin 2 → ℕ) a + (![1, N] : Fin 2 → ℕ) a ≤ (⟨2, ![4, N]⟩ : Shape).size a)
  (i0 : ∀ a, (![0, 0] : Fin 2 → ℕ) a + (![1, N] : Fin 2 → ℕ) a ≤ (⟨2, ![4, N]⟩ : Shape).size a)
  (w3 w2 w1 w0 : (⟨2, ![1, N]⟩ : Shape).Idx → Val e)

/-- After the four row stores, row 3 holds the fourth store's payload; -/
theorem rows4_3 (h : 3 < 4) (m : Fin N) :
    View.canon [⟨Rect.unit (s := ⟨2, ![4, N]⟩) ![3, 0] ![1, N] i3, w3⟩, ⟨Rect.unit (s := ⟨2, ![4, N]⟩) ![2, 0] ![1, N] i2, w2⟩,
      ⟨Rect.unit (s := ⟨2, ![4, N]⟩) ![1, 0] ![1, N] i1, w1⟩, ⟨Rect.unit (s := ⟨2, ![4, N]⟩) ![0, 0] ![1, N] i0, w0⟩]
      (ix2 (⟨3, h⟩ : Fin 4) m) = w3 (ix2 (0 : Fin 1) m) :=
  canon_newest 3 i3 w3 _ h m

/-- row 2 the third's; -/
theorem rows4_2 (h : 2 < 4) (m : Fin N) :
    View.canon [⟨Rect.unit (s := ⟨2, ![4, N]⟩) ![3, 0] ![1, N] i3, w3⟩, ⟨Rect.unit (s := ⟨2, ![4, N]⟩) ![2, 0] ![1, N] i2, w2⟩,
      ⟨Rect.unit (s := ⟨2, ![4, N]⟩) ![1, 0] ![1, N] i1, w1⟩, ⟨Rect.unit (s := ⟨2, ![4, N]⟩) ![0, 0] ![1, N] i0, w0⟩]
      (ix2 (⟨2, h⟩ : Fin 4) m) = w2 (ix2 (0 : Fin 1) m) :=
  (canon_skip 2 3 h (by decide) i3 w3 _ m).trans (canon_newest 2 i2 w2 _ h m)

/-- row 1 the second's; -/
theorem rows4_1 (h : 1 < 4) (m : Fin N) :
    View.canon [⟨Rect.unit (s := ⟨2, ![4, N]⟩) ![3, 0] ![1, N] i3, w3⟩, ⟨Rect.unit (s := ⟨2, ![4, N]⟩) ![2, 0] ![1, N] i2, w2⟩,
      ⟨Rect.unit (s := ⟨2, ![4, N]⟩) ![1, 0] ![1, N] i1, w1⟩, ⟨Rect.unit (s := ⟨2, ![4, N]⟩) ![0, 0] ![1, N] i0, w0⟩]
      (ix2 (⟨1, h⟩ : Fin 4) m) = w1 (ix2 (0 : Fin 1) m) :=
  (canon_skip 1 3 h (by decide) i3 w3 _ m).trans ((canon_skip 1 2 h (by decide) i2 w2 _ m).trans (canon_newest 1 i1 w1 _ h m))

/-- row 0 the first's. -/
theorem rows4_0 (h : 0 < 4) (m : Fin N) :
    View.canon [⟨Rect.unit (s := ⟨2, ![4, N]⟩) ![3, 0] ![1, N] i3, w3⟩, ⟨Rect.unit (s := ⟨2, ![4, N]⟩) ![2, 0] ![1, N] i2, w2⟩,
      ⟨Rect.unit (s := ⟨2, ![4, N]⟩) ![1, 0] ![1, N] i1, w1⟩, ⟨Rect.unit (s := ⟨2, ![4, N]⟩) ![0, 0] ![1, N] i0, w0⟩]
      (ix2 (⟨0, h⟩ : Fin 4) m) = w0 (ix2 (0 : Fin 1) m) :=
  (canon_skip 0 3 h (by decide) i3 w3 _ m).trans ((canon_skip 0 2 h (by decide) i2 w2 _ m).trans
    ((canon_skip 0 1 h (by decide) i1 w1 _ m).trans (canon_newest 0 i0 w0 _ h m)))

end Cert.RowStores

end
-- ==== Proof.DtwRowsBase.lean ====
/-
  Small facts the reading of the kernel's body leans on: which signal row and window a row store's own index names in the
  output block (`blockOut_emb`), the rows of squares at an entry, the four samples of a window as positions, and the
  cache row a row store's index names.
-/
import proofs.«169870_j18098992185357_2_alg».proof.Proof.Gen.KernelIdeal.Frame
import proofs.«169870_j18098992185357_2_alg».proof.Proof.DtwBlock
import proofs.«169870_j18098992185357_2_alg».proof.Proof.LibLaneDot
import proofs.«169870_j18098992185357_2_alg».proof.Proof.LibRowRect
import proofs.«169870_j18098992185357_2_alg».proof.Proof.LibRowStores
import Idealize.ShloMosaic.Lib.ValueLayout
import Idealize.ShloMosaic.Lib.Pipeline.Value
import Idealize.ShloMosaic.Lib.Tactic

set_option maxRecDepth 65536

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen

/-- A row store's rectangle that fits the block names one of its four rows. -/
theorem blk_lt {r : ℕ} (inb : ∀ a, (![0, 0, r, 0] : Fin 4 → ℕ) a + (![1, 1, 1, 4093] : Fin 4 → ℕ) a ≤ S1x1x4x4093.size a) :
    r < 4 := by
  have h := inb 2
  exact Nat.lt_of_succ_le h

/-- The block function at the place a row store's own index names: signal row `r`, window `l`. -/
theorem blockOut_emb (x0 : Vec Ideal S4x64x4096 .f32) (x1 : Vec Ideal S1x64x4096 .f32) (xs0 : Vec Ideal S4x4096 .f32)
    (r : ℕ) (inb : ∀ a, (![0, 0, r, 0] : Fin 4 → ℕ) a + (![1, 1, 1, 4093] : Fin 4 → ℕ) a ≤ S1x1x4x4093.size a)
    (u0 u1 u2 : Fin 1) (l : Fin 4093) :
    blockOut x0 x1 xs0 ((Rect.unit (s := S1x1x4x4093) ![0, 0, r, 0] ![1, 1, 1, 4093] inb).emb (ix4 u0 u1 u2 l))
      = Cert.Dtw.outChain (fun m => xs0 (ix2 ⟨r, blk_lt inb⟩ m))
          (fun c m => x0 (ix3 ⟨r, blk_lt inb⟩ c m)) (fun c m => x1 (ix3 ⟨0, Nat.one_pos⟩ c m)) l := by
  have h2 : (Rect.unit (s := S1x1x4x4093) ![0, 0, r, 0] ![1, 1, 1, 4093] inb).emb (ix4 u0 u1 u2 l) 2 = ⟨r, blk_lt inb⟩ :=
    Fin.ext (by show r + 1 * u2.val = r; omega)
  have h3 : (Rect.unit (s := S1x1x4x4093) ![0, 0, r, 0] ![1, 1, 1, 4093] inb).emb (ix4 u0 u1 u2 l) 3 = l :=
    Fin.ext (by show 0 + 1 * l.val = l.val; omega)
  unfold blockOut
  rw [h2, h3]
  rfl

/-- The rows of squares at (r, m). -/
theorem sqRows_apply (x0 : Vec Ideal S4x64x4096 .f32) (r : Fin 4) (m : Fin 4096) :
    sqRows x0 (ix2 r m) = ∑ c : Fin 64, x0 (ix3 r c m) * x0 (ix3 r c m) := rfl

theorem at4_0 (l : Fin 4093) : Cert.Dtw.at4 l 0 = ⟨0 + l.val, by omega⟩ := rfl
theorem at4_1 (l : Fin 4093) : Cert.Dtw.at4 l 1 = ⟨1 + l.val, by omega⟩ := rfl
theorem at4_2 (l : Fin 4093) : Cert.Dtw.at4 l 2 = ⟨2 + l.val, by omega⟩ := rfl
theorem at4_3 (l : Fin 4093) : Cert.Dtw.at4 l 3 = ⟨3 + l.val, by omega⟩ := rfl

/-- The rectangle of row `r` of the cache sends its own index (u, m) to (r, m) (the embedding form of `idx_row2`). -/
theorem emb_row2 (r : ℕ)
    (inb : ∀ a, (![r, 0] : Fin 2 → ℕ) a + (![1, 4096] : Fin 2 → ℕ) a ≤ S4x4096.size a) (u : Fin 1) (m : Fin 4096) :
    (Rect.unit (s := S4x4096) ![r, 0] ![1, 4096] inb).emb (ix2 u m) = ix2 ⟨r, Cert.RowRect.row_lt2 inb⟩ m :=
  Cert.RowRect.idx_row2 r inb u m

end Cert.KernelIdeal.Rows

end
-- ==== Proof.DtwRowsB.lean ====
/-
  A grid point whose template index is not 0, read as numbers.

  The body fills its output block with four row stores, one per signal row of the block. Each stored row is a long chain
  of entrywise operations on three kinds of leaves: a window of the cached row of squares, a window of Σ_c d², and a
  window of one of the five shifted cross sums Σ_c a(c, m) · d(c, m + s). Read at position `l` the chain is the
  kernel-order number `Cert.Dtw.outChain` of the block's row: the entrywise operations read through at the index, a window
  read lands on `offset + l`, and a sum down the 64 channels of a product of two column windows is the sum of the products
  of the shifted entries. So the block is `blockOut` of the two input blocks and of the cache as the point before left it.
-/
import proofs.«169870_j18098992185357_2_alg».proof.Proof.DtwRowsBase
import Idealize.ShloMosaic.Lib.ValueLayout
import Idealize.ShloMosaic.Lib.Pipeline.Value
import Idealize.ShloMosaic.Lib.Tactic

set_option maxRecDepth 65536

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen

set_option maxHeartbeats 8000000 in
/-- A point whose template index is not 0: the block is `blockOut` of the input blocks and of the cache as the point
    before left it. -/
theorem out_B (c : Dev nD) (i : grid0.Coords) (arg2 : Memref sig .tc .vmem S4x64x4096 .f32) (harg2 : arg2.IsWhole) (arg3 : Memref sig .tc .vmem S1x64x4096 .f32) (harg3 : arg3.IsWhole) (arg4 : Memref sig .tc .vmem S1x1x4x4093 .f32) (harg4 : arg4.IsWhole) (arg5 : Memref sig .tc .vmem S4x4096 .f32) (harg5 : arg5.IsWhole) (hc0 : ¬cond0_0 i)
    (x0 : Vec Ideal S4x64x4096 .f32) (x1 : Vec Ideal S1x64x4096 .f32) (xs0 : Vec Ideal S4x4096 .f32) :
    out0_B_2 c i arg2 harg2 arg3 harg3 arg4 harg4 arg5 harg5 hc0 x0 x1 xs0 = blockOut x0 x1 xs0 := by
  unfold out0_B_2
  rw [View.read_writes_eq_canon _ _ _ (cover0_B_2 c i arg2 harg2 arg3 harg3 arg4 harg4 arg5 harg5 hc0 x0 x1 xs0)]
  funext y
  refine View.canon_apply_of_pieces (blockOut x0 x1 xs0) _ ?_ y (cover0_B_2 c i arg2 harg2 arg3 harg3 arg4 harg4 arg5 harg5 hc0 x0 x1 xs0 y)
  unfold kernelRun0_B
  dsimp only
  sl_unfold_words
  intro p hp x
  simp only [List.mem_cons, List.not_mem_nil, or_false] at hp
  rcases hp with rfl | rfl | rfl | rfl
  all_goals
    obtain ⟨u0, u1, u2, l, rfl⟩ : ∃ (u0 u1 u2 : Fin 1) (l : Fin 4093), x = ix4 u0 u1 u2 l := ⟨x 0, x 1, x 2, x 3, eq_ix4 x⟩
    dsimp only
    rw [blockOut_emb]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, multiReduction, Ideal.reduceAdd_def, View.readAt_eq_ld, harg2.read_unread, harg3.read_unread, harg5.read_unread]
    rw [Cert.RowRect.rowCast_apply]
    simp only [divf_apply, addf_apply, mulf_apply, subf_apply, maximumf_apply, Cert.RowRect.exp_apply, broadcast_apply,
      slice2_axis1_eq, Cert.LaneDot.colSum_apply, Cert.LaneDot.sliceMul_apply, shapeCast_1ab_ab_apply,
      View.ld, Cert.RowRect.idx_row2, Cert.RowRect.idx_row3,
      Ideal.ofBits_def, Cert.RowRect.ofBits_two, Cert.RowRect.ofBits_zero,
      Cert.Dtw.outChain, Cert.Dtw.chainMix, Cert.Dtw.chainW, Cert.Dtw.chainPeak, Cert.Dtw.negC, Cert.Dtw.chainCost,
      Cert.Dtw.stepP, Cert.Dtw.dot, at4_0, at4_1, at4_2, at4_3,
      Fin.val_mk, Nat.zero_add, Cert.RowRect.add_add_left, Nat.reduceAdd]
    all_goals rfl

end Cert.KernelIdeal.Rows

end
-- ==== Proof.DtwRowsA.lean ====
/-
  A grid point whose template index is 0, read as numbers.

  The body first stores the rows of squares P(r, m) = Σ_c x0(r, c, m)² of its signal block into the cache, one row per
  store, and reads each row back; the rest is the chain of the other case. What is read back at row `r` is what the store
  of row `r` wrote (the other three stores touch other rows), so the block is `blockOut` of the two input blocks and of the
  rows of squares of the signal block.
-/
import proofs.«169870_j18098992185357_2_alg».proof.Proof.DtwRowsBase
import Idealize.ShloMosaic.Lib.ValueLayout
import Idealize.ShloMosaic.Lib.Pipeline.Value
import Idealize.ShloMosaic.Lib.Tactic

set_option maxRecDepth 65536

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen

set_option maxHeartbeats 8000000 in
/-- A point whose template index is 0: the body first stores the rows of squares of the signal block into the cache and
    reads them back, so the block is `blockOut` of the input blocks and of those rows. -/
theorem out_A (c : Dev nD) (i : grid0.Coords) (arg2 : Memref sig .tc .vmem S4x64x4096 .f32) (harg2 : arg2.IsWhole) (arg3 : Memref sig .tc .vmem S1x64x4096 .f32) (harg3 : arg3.IsWhole) (arg4 : Memref sig .tc .vmem S1x1x4x4093 .f32) (harg4 : arg4.IsWhole) (arg5 : Memref sig .tc .vmem S4x4096 .f32) (harg5 : arg5.IsWhole) (hc0 : cond0_0 i)
    (x0 : Vec Ideal S4x64x4096 .f32) (x1 : Vec Ideal S1x64x4096 .f32) :
    out0_A_2 c i arg2 harg2 arg3 harg3 arg4 harg4 arg5 harg5 hc0 x0 x1 = blockOut x0 x1 (sqRows x0) := by
  unfold out0_A_2
  rw [View.read_writes_eq_canon _ _ _ (cover0_A_2 c i arg2 harg2 arg3 harg3 arg4 harg4 arg5 harg5 hc0 x0 x1)]
  funext y
  refine View.canon_apply_of_pieces (blockOut x0 x1 (sqRows x0)) _ ?_ y (cover0_A_2 c i arg2 harg2 arg3 harg3 arg4 harg4 arg5 harg5 hc0 x0 x1 y)
  unfold kernelRun0_A
  dsimp only
  sl_unfold_words
  intro p hp x
  simp only [List.mem_cons, List.not_mem_nil, or_false] at hp
  rcases hp with rfl | rfl | rfl | rfl
  all_goals
    obtain ⟨u0, u1, u2, l, rfl⟩ : ∃ (u0 u1 u2 : Fin 1) (l : Fin 4093), x = ix4 u0 u1 u2 l := ⟨x 0, x 1, x 2, x 3, eq_ix4 x⟩
    dsimp only
    rw [blockOut_emb]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, multiReduction, Ideal.reduceAdd_def, View.readAt_eq_ld, harg2.read_unread, harg3.read_unread, harg5.read_unread]
    rw [Cert.RowRect.rowCast_apply]
    simp only [divf_apply, addf_apply, mulf_apply, subf_apply, maximumf_apply, Cert.RowRect.exp_apply, broadcast_apply,
      slice2_axis1_eq, Cert.LaneDot.colSum_apply, Cert.LaneDot.sliceMul_apply, shapeCast_1ab_ab_apply,
      View.ld, Cert.RowRect.idx_row2, Cert.RowRect.idx_row3,
      Ideal.ofBits_def, Cert.RowRect.ofBits_two, Cert.RowRect.ofBits_zero,
      Cert.Dtw.outChain, Cert.Dtw.chainMix, Cert.Dtw.chainW, Cert.Dtw.chainPeak, Cert.Dtw.negC, Cert.Dtw.chainCost,
      Cert.Dtw.stepP, Cert.Dtw.dot, at4_0, at4_1, at4_2, at4_3,
      Fin.val_mk, Nat.zero_add, Cert.RowRect.add_add_left, Nat.reduceAdd,
      View.readCov_eq_canon', Cert.RowStores.rows4_3, Cert.RowStores.rows4_2, Cert.RowStores.rows4_1, Cert.RowStores.rows4_0,
      shapeCast_self, sqRows_apply]
    all_goals rfl

end Cert.KernelIdeal.Rows

end
-- ==== Proof.DtwRowsS.lean ====
/-
  What a grid point whose template index is 0 leaves in the cache: four row stores, row `r` holding Σ_c x0(r, c, m)² —
  the rows of squares of its signal block.
-/
import proofs.«169870_j18098992185357_2_alg».proof.Proof.DtwRowsBase
import Idealize.ShloMosaic.Lib.ValueLayout
import Idealize.ShloMosaic.Lib.Pipeline.Value
import Idealize.ShloMosaic.Lib.Tactic

set_option maxRecDepth 65536

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen

set_option maxHeartbeats 8000000 in
/-- What such a point leaves in the cache: the rows of squares of its signal block. -/
theorem sout_A (c : Dev nD) (i : grid0.Coords) (arg2 : Memref sig .tc .vmem S4x64x4096 .f32) (harg2 : arg2.IsWhole) (arg3 : Memref sig .tc .vmem S1x64x4096 .f32) (harg3 : arg3.IsWhole) (arg4 : Memref sig .tc .vmem S1x1x4x4093 .f32) (harg4 : arg4.IsWhole) (arg5 : Memref sig .tc .vmem S4x4096 .f32) (harg5 : arg5.IsWhole) (hc0 : cond0_0 i)
    (x0 : Vec Ideal S4x64x4096 .f32) (x1 : Vec Ideal S1x64x4096 .f32) :
    sout0_A_0 c i arg2 harg2 arg3 harg3 arg4 harg4 arg5 harg5 hc0 x0 x1 = sqRows x0 := by
  unfold sout0_A_0
  rw [View.read_writes_eq_canon _ _ _ (scover0_A_0 c i arg2 harg2 arg3 harg3 arg4 harg4 arg5 harg5 hc0 x0 x1)]
  funext y
  refine View.canon_apply_of_pieces (sqRows x0) _ ?_ y (scover0_A_0 c i arg2 harg2 arg3 harg3 arg4 harg4 arg5 harg5 hc0 x0 x1 y)
  unfold kernelRun0_A
  dsimp only
  sl_unfold_words
  intro p hp x
  simp only [List.mem_cons, List.not_mem_nil, or_false] at hp
  rcases hp with rfl | rfl | rfl | rfl
  all_goals
    obtain ⟨u, mm, rfl⟩ : ∃ (u : Fin 1) (mm : Fin 4096), x = ix2 u mm := ⟨x 0, x 1, eq_ix2 x⟩
    dsimp only
    rw [emb_row2, sqRows_apply]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, multiReduction, Ideal.reduceAdd_def, View.readAt_eq_ld, harg2.read_unread, harg3.read_unread,
      shapeCast_self, Cert.LaneDot.colSum_apply, mulf_apply, shapeCast_1ab_ab_apply, View.ld, Cert.RowRect.idx_row3]
    all_goals rfl

end Cert.KernelIdeal.Rows

end
-- ==== Proof.DtwCarry.lean ====
/-
  The cache across the grid.

  The grid runs the five templates of a batch half one after the other (points 5g .. 5g+4). At the first of the five the
  body stores the rows of squares of the half's signal block into the cache; the other four find them there, because the
  signal block does not change inside the five. So after EVERY point the cache holds the rows of squares of that point's
  signal block, and the output block is `blockOut` of the point's two input blocks and of those rows — by induction on
  the point, the two cases of the body read as numbers in the module before.
-/
import proofs.«169870_j18098992185357_2_alg».proof.Proof.Gen.KernelIdeal.Frame
import proofs.«169870_j18098992185357_2_alg».proof.Proof.DtwRowsB
import proofs.«169870_j18098992185357_2_alg».proof.Proof.DtwRowsA
import proofs.«169870_j18098992185357_2_alg».proof.Proof.DtwRowsS
import proofs.«169870_j18098992185357_2_alg».proof.Proof.DtwGridIdx

noncomputable section

open Idealize.ShloMosaic Idealize.ShloMosaic.TcCoe Idealize.SL.Sem Idealize.ShloMosaic.ValueIdx

namespace Cert.KernelIdeal.Carry

open Cert.KernelIdeal Cert.KernelIdeal.Gen Cert.KernelIdeal.Rows Cert.KernelIdeal.Grid

variable (m : (ℓ : Loc nD τ sig) → Buf (Elt Ideal) ℓ)

/-- A point whose template index is 0: the pair (block, cache) it leaves. -/
theorem pair_A (c : Dev nD) (t : Fin cfg0.N) (h0 : t.val % 5 = 0) :
    outsAt0 m c t.val t.isLt = (blockOut (iblk m c 0 t) (iblk m c 1 t) (sqRows (iblk m c 0 t)), sqRows (iblk m c 0 t)) :=
  (outsAt0_A m c t h0).trans (congrArg₂ Prod.mk
    (out_A c (grid0.coords t) (ms0_0 t) (hs0_0 t) (ms0_1 t) (hs0_1 t) (ms0_2 t) (hs0_2 t) scM0_0 (Memref.isWhole_whole _) ((hcond0_0 t).mpr h0) (iblk m c 0 t) (iblk m c 1 t))
    (sout_A c (grid0.coords t) (ms0_0 t) (hs0_0 t) (ms0_1 t) (hs0_1 t) (ms0_2 t) (hs0_2 t) scM0_0 (Memref.isWhole_whole _) ((hcond0_0 t).mpr h0) (iblk m c 0 t) (iblk m c 1 t)))

set_option maxHeartbeats 1600000 in
/-- After every point: the output block and the cache, as functions of the point's input blocks — by induction on the
    point; inside a group of five the signal block, hence the cache, does not change. -/
theorem outsAt_eq (c : Dev nD) : ∀ (n : ℕ) (t : Fin cfg0.N), t.val = n →
    outsAt0 m c t.val t.isLt = (blockOut (iblk m c 0 t) (iblk m c 1 t) (sqRows (iblk m c 0 t)), sqRows (iblk m c 0 t)) := by
  intro n
  induction n with
  | zero =>
    intro t ht
    exact pair_A m c t (by rw [ht])
  | succ n ih =>
    intro t ht
    by_cases h0 : t.val % 5 = 0
    · exact pair_A m c t h0
    · have hpos : t.val - 1 < cfg0.N := Nat.lt_of_le_of_lt (Nat.sub_le _ _) t.isLt
      have ih' := ih ⟨t.val - 1, hpos⟩ (by show t.val - 1 = n; omega)
      have hp : (iblk m c 0 t : Vec Ideal S4x64x4096 .f32) = (iblk m c 0 ⟨t.val - 1, hpos⟩ : Vec Ideal S4x64x4096 .f32) :=
        iblk0_pred m c t h0
      have hXS : (outsAt0 m c (t.val - 1) hpos).2 = sqRows (iblk m c 0 t) := by
        have h2 := congrArg Prod.snd ih'
        rw [hp]
        exact h2
      exact (outsAt0_B m c t h0).trans (congrArg₂ Prod.mk
        ((out_B c (grid0.coords t) (ms0_0 t) (hs0_0 t) (ms0_1 t) (hs0_1 t) (ms0_2 t) (hs0_2 t) scM0_0 (Memref.isWhole_whole _) (fun hh => h0 ((hcond0_0 t).mp hh)) (iblk m c 0 t) (iblk m c 1 t) _).trans
          (congrArg (blockOut (iblk m c 0 t) (iblk m c 1 t)) hXS))
        hXS)

/-- The output block after point `t`. -/
theorem block_eq (c : Dev nD) (t : Fin cfg0.N) :
    (outsAt0 m c t.val t.isLt).1 = blockOut (iblk m c 0 t) (iblk m c 1 t) (sqRows (iblk m c 0 t)) :=
  congrArg Prod.fst (outsAt_eq m c t.val t rfl)

end Cert.KernelIdeal.Carry

end
-- ==== Proof.LibRef.lean ====
/-
  Layout operations and host reductions of rank-3, rank-4 and rank-5 arrays read at an index given by its coordinates —
  generic in the extents.

  * a host sum along the LAST axis of an [A, B, C, D] array is, at (a, b, c), the initial value plus the sum of the D
    entries x(a, b, c, ·) (hostReduceAdd_last4); along axis 2 of an [A, B, C, D, E] array it is, at (a, b, d, e), the
    initial value plus the sum of the C entries x(a, b, ·, d, e) (hostReduceAdd_axis2of5);
  * a host reduce along the last axis of an [A, B, C, D] array with a commutative associative body is the fold of the
    body from the initial value over the D entries (hostReduce_last4); over the extended reals the fold by max from the
    least element is the supremum (fold_max_bot), and the f32 word of −∞ denotes that least element (ofBits_neg_inf_f32);
  * a unit-stride slice of the last axis of a rank-4 array reads the operand shifted by the offset (slice_last4);
  * the keepdims forms [A,B,C] → [A,B,C,1] → [A,B,C,D] and [A,B,C,D] → [A,B,C,D,1] read the operand at the same
    leading coordinates (keep3_unit_apply, keep3_bcast_apply, keep4_unit_apply), and a rank-0 array broadcast to rank 3 reads
    its one entry (bcast_scalar3_apply);
  * two transposes of rank 3, by the permutations [1,0,2] and [2,0,1] (transpose102_apply, transpose201_apply).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.Ref

open Idealize.ShloMosaic Idealize.ShloMosaic.ValueIdx

variable {A B C D E : Nat}

/-- The index over (a, b, c) with d inserted on the last axis is (a, b, c, d). -/
theorem lift_last4 (h : (⟨4, ![A, B, C, D]⟩ : Shape).Reduces [3] ⟨3, ![A, B, C]⟩) (a : Fin A) (b : Fin B) (c : Fin C)
    (d : Fin D) : h.lift (ix3 a b c) d = ix4 a b c d :=
  funext fun ax => Fin.ext (by match ax with | ⟨0, _⟩ => rfl | ⟨1, _⟩ => rfl | ⟨2, _⟩ => rfl | ⟨3, _⟩ => rfl)

/-- The index over (a, b, d, e) with c inserted on axis 2 is (a, b, c, d, e). -/
theorem lift_axis2of5 (h : (⟨5, ![A, B, C, D, E]⟩ : Shape).Reduces [2] ⟨4, ![A, B, D, E]⟩) (a : Fin A) (b : Fin B)
    (c : Fin C) (d : Fin D) (e : Fin E) : h.lift (ix4 a b d e) c = ix5 a b c d e :=
  funext fun ax => Fin.ext (by
    match ax with | ⟨0, _⟩ => rfl | ⟨1, _⟩ => rfl | ⟨2, _⟩ => rfl | ⟨3, _⟩ => rfl | ⟨4, _⟩ => rfl)

/-- The host's sum along the last axis of an [A, B, C, D] array: at (a, b, c) the initial value plus the sum of the
    entries x(a, b, c, ·). -/
theorem hostReduceAdd_last4 (x : FVec Ideal ⟨4, ![A, B, C, D]⟩ .f32) (init : (⟨0, ![]⟩ : Shape).Idx → Ideal .f32)
    (h' : (⟨4, ![A, B, C, D]⟩ : Shape).ReducesTo [3] ⟨3, ![A, B, C]⟩)
    (h : (⟨4, ![A, B, C, D]⟩ : Shape).Reduces [3] ⟨3, ![A, B, C]⟩) (hu : 0 < (⟨0, ![]⟩ : Shape).numel)
    (a : Fin A) (b : Fin B) (c : Fin C) :
    Host.reduceAdd (F := Ideal) x init h' hu (ix3 a b c)
      = init (Shape.Idx.first hu) + ∑ d : Fin D, x (ix4 a b c d) := by
  refine (Ideal.hostReduceAdd_single h' h x (init (Shape.Idx.first hu)) (ix3 a b c)).trans ?_
  exact congrArg (init (Shape.Idx.first hu) + ·) (Finset.sum_congr rfl fun d _ => congrArg x (lift_last4 h a b c d))

/-- The host's sum along axis 2 of an [A, B, C, D, E] array: at (a, b, d, e) the initial value plus the sum of the
    entries x(a, b, ·, d, e). -/
theorem hostReduceAdd_axis2of5 (x : FVec Ideal ⟨5, ![A, B, C, D, E]⟩ .f32) (init : (⟨0, ![]⟩ : Shape).Idx → Ideal .f32)
    (h' : (⟨5, ![A, B, C, D, E]⟩ : Shape).ReducesTo [2] ⟨4, ![A, B, D, E]⟩)
    (h : (⟨5, ![A, B, C, D, E]⟩ : Shape).Reduces [2] ⟨4, ![A, B, D, E]⟩) (hu : 0 < (⟨0, ![]⟩ : Shape).numel)
    (a : Fin A) (b : Fin B) (d : Fin D) (e : Fin E) :
    Host.reduceAdd (F := Ideal) x init h' hu (ix4 a b d e)
      = init (Shape.Idx.first hu) + ∑ c : Fin C, x (ix5 a b c d e) := by
  refine (Ideal.hostReduceAdd_single h' h x (init (Shape.Idx.first hu)) (ix4 a b d e)).trans ?_
  exact congrArg (init (Shape.Idx.first hu) + ·)
    (Finset.sum_congr rfl fun c _ => congrArg x (lift_axis2of5 h a b c d e))

/-- The host's one-operand reduce along the last axis of an [A, B, C, D] array with a commutative associative body: at
    (a, b, c) the fold of the body from the initial value over the entries x(a, b, c, ·). -/
theorem hostReduce_last4 (f : EReal → EReal → EReal) [Std.Commutative f] [Std.Associative f]
    (h' : (⟨4, ![A, B, C, D]⟩ : Shape).ReducesTo [3] ⟨3, ![A, B, C]⟩)
    (h : (⟨4, ![A, B, C, D]⟩ : Shape).Reduces [3] ⟨3, ![A, B, C]⟩)
    (x : (⟨4, ![A, B, C, D]⟩ : Shape).Idx → EReal) (init : (⟨0, ![]⟩ : Shape).Idx → EReal)
    (hu : 0 < (⟨0, ![]⟩ : Shape).numel) (a : Fin A) (b : Fin B) (c : Fin C) :
    Host.reduce f x init h' hu (ix3 a b c)
      = (Finset.univ : Finset (Fin D)).fold f (init (Shape.Idx.first hu)) (fun d => x (ix4 a b c d)) := by
  rw [Host.reduce_eq_fold_single f x init h' h hu (ix3 a b c)]
  refine congrArg (fun g => (Finset.univ : Finset (Fin D)).fold f (init (Shape.Idx.first hu)) g) (funext fun d => ?_)
  exact congrArg x (lift_last4 h a b c d)

/-- Over the extended reals the fold by max from the least element is the supremum. -/
theorem fold_max_bot {ι : Type} (s : Finset ι) (g : ι → EReal) : s.fold max ⊥ g = s.sup g := by
  classical
  induction s using Finset.induction_on with
  | empty => simp
  | insert a s ha ih => rw [Finset.fold_insert ha, Finset.sup_insert, ih]

/-- The f32 word of −∞ denotes the least extended real. -/
theorem ofBits_neg_inf_f32 : Ideal.ofBits .f32 0xFF800000#32 = ⊥ := by simp [Ideal.ofBits, Ideal.ieee]

variable {α : Type}

/-- A unit-stride slice of the last axis of a rank-4 array (zero offsets on the other axes) reads, at (a, b, c, l), the
    operand at (a, b, c, k) where k is l shifted by the last offset. -/
theorem slice_last4 {D' : Nat} (off : Fin 4 → Nat) (x : (⟨4, ![A, B, C, D]⟩ : Shape).Idx → α)
    (h : (⟨4, ![A, B, C, D]⟩ : Shape).Slices off ⟨4, ![A, B, C, D']⟩) (h0 : off 0 = 0) (h1 : off 1 = 0) (h2 : off 2 = 0)
    (a : Fin A) (b : Fin B) (c : Fin C) (l : Fin D') (k : Fin D) (hk : k.val = off 3 + l.val) :
    extractStridedSlice ⟨4, ![A, B, C, D']⟩ off x h (ix4 a b c l) = x (ix4 a b c k) :=
  extractStridedSlice_apply off x h (ix4 a b c l) (ix4 a b c k) fun ax => by
    match ax with
    | ⟨0, _⟩ => show a.val = off 0 + a.val; omega
    | ⟨1, _⟩ => show b.val = off 1 + b.val; omega
    | ⟨2, _⟩ => show c.val = off 2 + c.val; omega
    | ⟨3, _⟩ => exact hk

/-- An [A, B, C] array with a unit axis appended reads, at (a, b, c, u), the operand at (a, b, c). -/
theorem keep3_unit_apply (dims : Fin 3 → Fin 4) (hd : dims = ![0, 1, 2]) (x : (⟨3, ![A, B, C]⟩ : Shape).Idx → α)
    (h : (⟨3, ![A, B, C]⟩ : Shape).BroadcastsInDim ⟨4, ![A, B, C, 1]⟩ dims) (a : Fin A) (b : Fin B) (c : Fin C) (u : Fin 1) :
    broadcastInDim ⟨4, ![A, B, C, 1]⟩ dims h x (ix4 a b c u) = x (ix3 a b c) := by
  subst hd
  refine broadcastInDim_apply _ h x (ix4 a b c u) (ix3 a b c) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl

/-- An [A, B, C, 1] array broadcast along its unit axis to [A, B, C, D] reads, at (a, b, c, d), the operand at
    (a, b, c, 0). -/
theorem keep3_bcast_apply (dims : Fin 4 → Fin 4) (hd : dims = ![0, 1, 2, 3]) (x : (⟨4, ![A, B, C, 1]⟩ : Shape).Idx → α)
    (h : (⟨4, ![A, B, C, 1]⟩ : Shape).BroadcastsInDim ⟨4, ![A, B, C, D]⟩ dims) (a : Fin A) (b : Fin B) (c : Fin C)
    (d : Fin D) : broadcastInDim ⟨4, ![A, B, C, D]⟩ dims h x (ix4 a b c d) = x (ix4 a b c (0 : Fin 1)) := by
  subst hd
  refine broadcastInDim_apply _ h x (ix4 a b c d) (ix4 a b c (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl
  | ⟨3, _⟩ => rfl

/-- An [A, B, C, D] array with a unit axis appended reads, at (a, b, c, d, u), the operand at (a, b, c, d). -/
theorem keep4_unit_apply (dims : Fin 4 → Fin 5) (hd : dims = ![0, 1, 2, 3]) (x : (⟨4, ![A, B, C, D]⟩ : Shape).Idx → α)
    (h : (⟨4, ![A, B, C, D]⟩ : Shape).BroadcastsInDim ⟨5, ![A, B, C, D, 1]⟩ dims) (a : Fin A) (b : Fin B) (c : Fin C)
    (d : Fin D) (u : Fin 1) : broadcastInDim ⟨5, ![A, B, C, D, 1]⟩ dims h x (ix5 a b c d u) = x (ix4 a b c d) := by
  subst hd
  refine broadcastInDim_apply _ h x (ix5 a b c d u) (ix4 a b c d) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl
  | ⟨3, _⟩ =>
    show d.val = if D = 1 then 0 else d.val
    split
    · have := d.isLt; omega
    · rfl

/-- A rank-0 array broadcast to [A, B, C] reads its one entry everywhere. -/
theorem bcast_scalar3_apply (dims : Fin 0 → Fin 3) (x : (⟨0, ![]⟩ : Shape).Idx → α)
    (h : (⟨0, ![]⟩ : Shape).BroadcastsInDim ⟨3, ![A, B, C]⟩ dims) (j : (⟨3, ![A, B, C]⟩ : Shape).Idx) :
    broadcastInDim ⟨3, ![A, B, C]⟩ dims h x j = x ix0 :=
  broadcastInDim_apply dims h x j ix0 fun ax => ax.elim0

/-- The transpose of an [A, B, C] array by the permutation [1, 0, 2] reads, at (b, a, c), the operand at (a, b, c). -/
theorem transpose102_apply (x : (⟨3, ![A, B, C]⟩ : Shape).Idx → α)
    (h : (⟨3, ![A, B, C]⟩ : Shape).Transposes [1, 0, 2] ⟨3, ![B, A, C]⟩) (a : Fin A) (b : Fin B) (c : Fin C) :
    transpose ⟨3, ![B, A, C]⟩ [1, 0, 2] x h (ix3 b a c) = x (ix3 a b c) :=
  transpose_apply [1, 0, 2] x h (ix3 b a c) (ix3 a b c) fun ax => by
    match ax with | ⟨0, _⟩ => rfl | ⟨1, _⟩ => rfl | ⟨2, _⟩ => rfl

/-- The transpose of an [A, B, C] array by the permutation [2, 0, 1] reads, at (c, a, b), the operand at (a, b, c). -/
theorem transpose201_apply (x : (⟨3, ![A, B, C]⟩ : Shape).Idx → α)
    (h : (⟨3, ![A, B, C]⟩ : Shape).Transposes [2, 0, 1] ⟨3, ![C, A, B]⟩) (a : Fin A) (b : Fin B) (c : Fin C) :
    transpose ⟨3, ![C, A, B]⟩ [2, 0, 1] x h (ix3 c a b) = x (ix3 a b c) :=
  transpose_apply [2, 0, 1] x h (ix3 c a b) (ix3 a b c) fun ax => by
    match ax with | ⟨0, _⟩ => rfl | ⟨1, _⟩ => rfl | ⟨2, _⟩ => rfl

end Cert.Lib.Ref

end
-- ==== Proof.DtwRefSq.lean ====
/-
  The reference's squared differences read at an index.

  The reference lays the signal batch X : [8, 64, 4096] out as [1, 8, 64, 4096] and the templates W : [64, 4096, 5],
  transposed to [5, 64, 4096], as [5, 1, 64, 4096]; cuts from each the four windows of 4093 samples that start at
  offsets 0, 1, 2, 3; broadcasts a signal window and a template window to [5, 8, 64, 4093]; subtracts and squares.
  At (e, b, c, l) the square built from signal offset i and template offset j is the specification's squared difference
  of signal sample l + i and template sample l + j of window l, in channel c, for signal row b and template e.
-/
import proofs.«169870_j18098992185357_2_alg».proof.Proof.Gen.ReferenceIdeal.Run
import proofs.«169870_j18098992185357_2_alg».proof.Proof.DtwSpec
import proofs.«169870_j18098992185357_2_alg».proof.Proof.LibRef

noncomputable section

namespace Cert.ReferenceIdeal.RefValue

open Cert.ReferenceIdeal Cert.ReferenceIdeal.Gen Cert.ReferenceIdeal.Value
open Idealize.ShloMosaic Idealize.ShloMosaic.ValueIdx Cert.Dtw Cert.Lib.Ref

variable (V0 : Valuation τ sig (Elt Ideal))

/-- The laid-out signal batch at (0, b, c, m) is the batch at (b, c, m). -/
theorem v2_apply (u : Fin 1) (b : Fin 8) (c : Fin 64) (m : Fin 4096) :
    res_main_v2 V0 (ix4 u b c m) = V0 (Proc.devRef .tc main_arg0) (ix3 b c m) :=
  broadcastInDim_apply _ bcast_S8x64x4096_S1x8x64x4096_1_2_3 _ (ix4 u b c m) (ix3 b c m) fun ax => by
    match ax with | ⟨0, _⟩ => rfl | ⟨1, _⟩ => rfl | ⟨2, _⟩ => rfl

/-- The laid-out templates at (e, 0, c, m) are the template array at (c, m, e). -/
theorem v1_apply (e : Fin 5) (u : Fin 1) (c : Fin 64) (m : Fin 4096) :
    res_main_v1 V0 (ix4 e u c m) = V0 (Proc.devRef .tc main_arg1) (ix3 c m e) := by
  refine (broadcastInDim_apply _ bcast_S5x64x4096_S5x1x64x4096_0_2_3 _ (ix4 e u c m) (ix3 e c m) fun ax => by
    match ax with | ⟨0, _⟩ => rfl | ⟨1, _⟩ => rfl | ⟨2, _⟩ => rfl).trans ?_
  exact transpose201_apply _ transposes_S64x4096x5_S5x64x4096_2_0_1 c m e

/-- The signal window at offset 0: sample l + 0 of the batch. -/
theorem v3_apply (u : Fin 1) (b : Fin 8) (c : Fin 64) (l : Fin 4093) :
    res_main_v3 V0 (ix4 u b c l) = V0 (Proc.devRef .tc main_arg0) (ix3 b c (at4 l 0)) :=
  (slice_last4 _ (res_main_v2 V0) slices_S1x8x64x4096_S1x8x64x4093_0_0_0_0 rfl rfl rfl u b c l (at4 l 0)
    rfl).trans (v2_apply V0 u b c (at4 l 0))

/-- The signal window at offset 1: sample l + 1 of the batch. -/
theorem v4_apply (u : Fin 1) (b : Fin 8) (c : Fin 64) (l : Fin 4093) :
    res_main_v4 V0 (ix4 u b c l) = V0 (Proc.devRef .tc main_arg0) (ix3 b c (at4 l 1)) :=
  (slice_last4 _ (res_main_v2 V0) slices_S1x8x64x4096_S1x8x64x4093_0_0_0_1 rfl rfl rfl u b c l (at4 l 1)
    rfl).trans (v2_apply V0 u b c (at4 l 1))

/-- The signal window at offset 2: sample l + 2 of the batch. -/
theorem v5_apply (u : Fin 1) (b : Fin 8) (c : Fin 64) (l : Fin 4093) :
    res_main_v5 V0 (ix4 u b c l) = V0 (Proc.devRef .tc main_arg0) (ix3 b c (at4 l 2)) :=
  (slice_last4 _ (res_main_v2 V0) slices_S1x8x64x4096_S1x8x64x4093_0_0_0_2 rfl rfl rfl u b c l (at4 l 2)
    rfl).trans (v2_apply V0 u b c (at4 l 2))

/-- The signal window at offset 3: sample l + 3 of the batch. -/
theorem v6_apply (u : Fin 1) (b : Fin 8) (c : Fin 64) (l : Fin 4093) :
    res_main_v6 V0 (ix4 u b c l) = V0 (Proc.devRef .tc main_arg0) (ix3 b c (at4 l 3)) :=
  (slice_last4 _ (res_main_v2 V0) slices_S1x8x64x4096_S1x8x64x4093_0_0_0_3 rfl rfl rfl u b c l (at4 l 3)
    rfl).trans (v2_apply V0 u b c (at4 l 3))

/-- The template window at offset 0: sample l + 0 of the templates. -/
theorem v7_apply (e : Fin 5) (u : Fin 1) (c : Fin 64) (l : Fin 4093) :
    res_main_v7 V0 (ix4 e u c l) = V0 (Proc.devRef .tc main_arg1) (ix3 c (at4 l 0) e) :=
  (slice_last4 _ (res_main_v1 V0) slices_S5x1x64x4096_S5x1x64x4093_0_0_0_0 rfl rfl rfl e u c l (at4 l 0)
    rfl).trans (v1_apply V0 e u c (at4 l 0))

/-- The template window at offset 1: sample l + 1 of the templates. -/
theorem v8_apply (e : Fin 5) (u : Fin 1) (c : Fin 64) (l : Fin 4093) :
    res_main_v8 V0 (ix4 e u c l) = V0 (Proc.devRef .tc main_arg1) (ix3 c (at4 l 1) e) :=
  (slice_last4 _ (res_main_v1 V0) slices_S5x1x64x4096_S5x1x64x4093_0_0_0_1 rfl rfl rfl e u c l (at4 l 1)
    rfl).trans (v1_apply V0 e u c (at4 l 1))

/-- The template window at offset 2: sample l + 2 of the templates. -/
theorem v9_apply (e : Fin 5) (u : Fin 1) (c : Fin 64) (l : Fin 4093) :
    res_main_v9 V0 (ix4 e u c l) = V0 (Proc.devRef .tc main_arg1) (ix3 c (at4 l 2) e) :=
  (slice_last4 _ (res_main_v1 V0) slices_S5x1x64x4096_S5x1x64x4093_0_0_0_2 rfl rfl rfl e u c l (at4 l 2)
    rfl).trans (v1_apply V0 e u c (at4 l 2))

/-- The template window at offset 3: sample l + 3 of the templates. -/
theorem v10_apply (e : Fin 5) (u : Fin 1) (c : Fin 64) (l : Fin 4093) :
    res_main_v10 V0 (ix4 e u c l) = V0 (Proc.devRef .tc main_arg1) (ix3 c (at4 l 3) e) :=
  (slice_last4 _ (res_main_v1 V0) slices_S5x1x64x4096_S5x1x64x4093_0_0_0_3 rfl rfl rfl e u c l (at4 l 3)
    rfl).trans (v1_apply V0 e u c (at4 l 3))

/-- A signal window broadcast over the templates reads the window at (0, b, c, l). -/
theorem bcX_apply (xs : FVec Ideal S1x8x64x4093 .f32) (e : Fin 5) (b : Fin 8) (c : Fin 64) (l : Fin 4093) :
    broadcastInDim S5x8x64x4093 ![0, 1, 2, 3] bcast_S1x8x64x4093_S5x8x64x4093_0_1_2_3 xs (ix4 e b c l)
      = xs (ix4 (0 : Fin 1) b c l) :=
  broadcastInDim_apply _ _ xs (ix4 e b c l) (ix4 (0 : Fin 1) b c l) fun ax => by
    match ax with | ⟨0, _⟩ => rfl | ⟨1, _⟩ => rfl | ⟨2, _⟩ => rfl | ⟨3, _⟩ => rfl

/-- A template window broadcast over the signal rows reads the window at (e, 0, c, l). -/
theorem bcW_apply (ys : FVec Ideal S5x1x64x4093 .f32) (e : Fin 5) (b : Fin 8) (c : Fin 64) (l : Fin 4093) :
    broadcastInDim S5x8x64x4093 ![0, 1, 2, 3] bcast_S5x1x64x4093_S5x8x64x4093_0_1_2_3 ys (ix4 e b c l)
      = ys (ix4 e (0 : Fin 1) c l) :=
  broadcastInDim_apply _ _ ys (ix4 e b c l) (ix4 e (0 : Fin 1) c l) fun ax => by
    match ax with | ⟨0, _⟩ => rfl | ⟨1, _⟩ => rfl | ⟨2, _⟩ => rfl | ⟨3, _⟩ => rfl

/-- The square of the difference of a broadcast signal window (at offset i) and a broadcast template window (at offset
    j) is, at (e, b, c, l), the specification's squared difference. -/
theorem sq_apply (xs : FVec Ideal S1x8x64x4093 .f32) (ys : FVec Ideal S5x1x64x4093 .f32) (i j : Fin 4) (e : Fin 5) (b : Fin 8)
    (c : Fin 64) (l : Fin 4093)
    (hx : xs (ix4 (0 : Fin 1) b c l) = V0 (Proc.devRef .tc main_arg0) (ix3 b c (at4 l i)))
    (hy : ys (ix4 e (0 : Fin 1) c l) = V0 (Proc.devRef .tc main_arg1) (ix3 c (at4 l j) e)) :
    mulf (F := Ideal) (φ := .f32)
        (subf (broadcastInDim S5x8x64x4093 ![0, 1, 2, 3] bcast_S1x8x64x4093_S5x8x64x4093_0_1_2_3 xs)
          (broadcastInDim S5x8x64x4093 ![0, 1, 2, 3] bcast_S5x1x64x4093_S5x8x64x4093_0_1_2_3 ys))
        (subf (broadcastInDim S5x8x64x4093 ![0, 1, 2, 3] bcast_S1x8x64x4093_S5x8x64x4093_0_1_2_3 xs)
          (broadcastInDim S5x8x64x4093 ![0, 1, 2, 3] bcast_S5x1x64x4093_S5x8x64x4093_0_1_2_3 ys)) (ix4 e b c l)
      = sq (rowX (V0 (Proc.devRef .tc main_arg0)) b) (rowW (V0 (Proc.devRef .tc main_arg1)) e) l i j c := by
  rw [mulf_apply, subf_apply, bcX_apply, bcW_apply, hx, hy]
  rfl

/-- Signal offset 0 against template offset 0. -/
theorem sq00_apply (e : Fin 5) (b : Fin 8) (c : Fin 64) (l : Fin 4093) :
    res_main_v14 V0 (ix4 e b c l)
      = sq (rowX (V0 (Proc.devRef .tc main_arg0)) b) (rowW (V0 (Proc.devRef .tc main_arg1)) e) l 0 0 c :=
  sq_apply V0 (res_main_v3 V0) (res_main_v7 V0) 0 0 e b c l (v3_apply V0 0 b c l) (v7_apply V0 e 0 c l)

/-- Signal offset 1 against template offset 1. -/
theorem sq11_apply (e : Fin 5) (b : Fin 8) (c : Fin 64) (l : Fin 4093) :
    res_main_v18 V0 (ix4 e b c l)
      = sq (rowX (V0 (Proc.devRef .tc main_arg0)) b) (rowW (V0 (Proc.devRef .tc main_arg1)) e) l 1 1 c :=
  sq_apply V0 (res_main_v4 V0) (res_main_v8 V0) 1 1 e b c l (v4_apply V0 0 b c l) (v8_apply V0 e 0 c l)

/-- Signal offset 2 against template offset 2. -/
theorem sq22_apply (e : Fin 5) (b : Fin 8) (c : Fin 64) (l : Fin 4093) :
    res_main_v22 V0 (ix4 e b c l)
      = sq (rowX (V0 (Proc.devRef .tc main_arg0)) b) (rowW (V0 (Proc.devRef .tc main_arg1)) e) l 2 2 c :=
  sq_apply V0 (res_main_v5 V0) (res_main_v9 V0) 2 2 e b c l (v5_apply V0 0 b c l) (v9_apply V0 e 0 c l)

/-- Signal offset 3 against template offset 3. -/
theorem sq33_apply (e : Fin 5) (b : Fin 8) (c : Fin 64) (l : Fin 4093) :
    res_main_v26 V0 (ix4 e b c l)
      = sq (rowX (V0 (Proc.devRef .tc main_arg0)) b) (rowW (V0 (Proc.devRef .tc main_arg1)) e) l 3 3 c :=
  sq_apply V0 (res_main_v6 V0) (res_main_v10 V0) 3 3 e b c l (v6_apply V0 0 b c l) (v10_apply V0 e 0 c l)

/-- Signal offset 0 against template offset 1. -/
theorem sq01_apply (e : Fin 5) (b : Fin 8) (c : Fin 64) (l : Fin 4093) :
    res_main_v30 V0 (ix4 e b c l)
      = sq (rowX (V0 (Proc.devRef .tc main_arg0)) b) (rowW (V0 (Proc.devRef .tc main_arg1)) e) l 0 1 c :=
  sq_apply V0 (res_main_v3 V0) (res_main_v8 V0) 0 1 e b c l (v3_apply V0 0 b c l) (v8_apply V0 e 0 c l)

/-- Signal offset 1 against template offset 2. -/
theorem sq12_apply (e : Fin 5) (b : Fin 8) (c : Fin 64) (l : Fin 4093) :
    res_main_v34 V0 (ix4 e b c l)
      = sq (rowX (V0 (Proc.devRef .tc main_arg0)) b) (rowW (V0 (Proc.devRef .tc main_arg1)) e) l 1 2 c :=
  sq_apply V0 (res_main_v4 V0) (res_main_v9 V0) 1 2 e b c l (v4_apply V0 0 b c l) (v9_apply V0 e 0 c l)

/-- Signal offset 2 against template offset 3. -/
theorem sq23_apply (e : Fin 5) (b : Fin 8) (c : Fin 64) (l : Fin 4093) :
    res_main_v38 V0 (ix4 e b c l)
      = sq (rowX (V0 (Proc.devRef .tc main_arg0)) b) (rowW (V0 (Proc.devRef .tc main_arg1)) e) l 2 3 c :=
  sq_apply V0 (res_main_v5 V0) (res_main_v10 V0) 2 3 e b c l (v5_apply V0 0 b c l) (v10_apply V0 e 0 c l)

/-- Signal offset 0 against template offset 2. -/
theorem sq02_apply (e : Fin 5) (b : Fin 8) (c : Fin 64) (l : Fin 4093) :
    (mulf (F := Ideal) (φ := .f32) (res_main_v41 V0) (res_main_v41 V0)) (ix4 e b c l)
      = sq (rowX (V0 (Proc.devRef .tc main_arg0)) b) (rowW (V0 (Proc.devRef .tc main_arg1)) e) l 0 2 c :=
  sq_apply V0 (res_main_v3 V0) (res_main_v9 V0) 0 2 e b c l (v3_apply V0 0 b c l) (v9_apply V0 e 0 c l)

/-- Signal offset 1 against template offset 3. -/
theorem sq13_apply (e : Fin 5) (b : Fin 8) (c : Fin 64) (l : Fin 4093) :
    (mulf (F := Ideal) (φ := .f32) (res_main_v45 V0) (res_main_v45 V0)) (ix4 e b c l)
      = sq (rowX (V0 (Proc.devRef .tc main_arg0)) b) (rowW (V0 (Proc.devRef .tc main_arg1)) e) l 1 3 c :=
  sq_apply V0 (res_main_v4 V0) (res_main_v10 V0) 1 3 e b c l (v4_apply V0 0 b c l) (v10_apply V0 e 0 c l)

/-- Signal offset 1 against template offset 0. -/
theorem sq10_apply (e : Fin 5) (b : Fin 8) (c : Fin 64) (l : Fin 4093) :
    res_main_v50 V0 (ix4 e b c l)
      = sq (rowX (V0 (Proc.devRef .tc main_arg0)) b) (rowW (V0 (Proc.devRef .tc main_arg1)) e) l 1 0 c :=
  sq_apply V0 (res_main_v4 V0) (res_main_v7 V0) 1 0 e b c l (v4_apply V0 0 b c l) (v7_apply V0 e 0 c l)

/-- Signal offset 2 against template offset 1. -/
theorem sq21_apply (e : Fin 5) (b : Fin 8) (c : Fin 64) (l : Fin 4093) :
    res_main_v54 V0 (ix4 e b c l)
      = sq (rowX (V0 (Proc.devRef .tc main_arg0)) b) (rowW (V0 (Proc.devRef .tc main_arg1)) e) l 2 1 c :=
  sq_apply V0 (res_main_v5 V0) (res_main_v8 V0) 2 1 e b c l (v5_apply V0 0 b c l) (v8_apply V0 e 0 c l)

/-- Signal offset 3 against template offset 2. -/
theorem sq32_apply (e : Fin 5) (b : Fin 8) (c : Fin 64) (l : Fin 4093) :
    res_main_v58 V0 (ix4 e b c l)
      = sq (rowX (V0 (Proc.devRef .tc main_arg0)) b) (rowW (V0 (Proc.devRef .tc main_arg1)) e) l 3 2 c :=
  sq_apply V0 (res_main_v6 V0) (res_main_v9 V0) 3 2 e b c l (v6_apply V0 0 b c l) (v9_apply V0 e 0 c l)

/-- Signal offset 2 against template offset 0. -/
theorem sq20_apply (e : Fin 5) (b : Fin 8) (c : Fin 64) (l : Fin 4093) :
    (mulf (F := Ideal) (φ := .f32) (res_main_v61 V0) (res_main_v61 V0)) (ix4 e b c l)
      = sq (rowX (V0 (Proc.devRef .tc main_arg0)) b) (rowW (V0 (Proc.devRef .tc main_arg1)) e) l 2 0 c :=
  sq_apply V0 (res_main_v5 V0) (res_main_v7 V0) 2 0 e b c l (v5_apply V0 0 b c l) (v7_apply V0 e 0 c l)

/-- Signal offset 3 against template offset 1. -/
theorem sq31_apply (e : Fin 5) (b : Fin 8) (c : Fin 64) (l : Fin 4093) :
    (mulf (F := Ideal) (φ := .f32) (res_main_v65 V0) (res_main_v65 V0)) (ix4 e b c l)
      = sq (rowX (V0 (Proc.devRef .tc main_arg0)) b) (rowW (V0 (Proc.devRef .tc main_arg1)) e) l 3 1 c :=
  sq_apply V0 (res_main_v6 V0) (res_main_v8 V0) 3 1 e b c l (v6_apply V0 0 b c l) (v8_apply V0 e 0 c l)

end Cert.ReferenceIdeal.RefValue

end
-- ==== Proof.LibConcatUnit.lean ====
/-
  A concatenation of unit-extent pieces along a new last axis of a rank-5 array (what a stack along the last axis is),
  read at an index given by its coordinates: at (a, b, c, d, k) it is piece k at (a, b, c, d, 0).

  Nothing here depends on a program.
-/
import Idealize.ShloMosaic.Lib.Pipeline.Value
import Idealize.ShloMosaic.Lib.ValueIdx

noncomputable section

namespace Cert.Lib.Ref

open Idealize.ShloMosaic Idealize.ShloMosaic.ValueIdx

variable {A B C D E : Nat} {α : Type}

/-- Pieces of shape [A, B, C, D, 1] concatenated along axis 4 into [A, B, C, D, E]: when there are E pieces (hlen), the k-th piece of the list is
    x₁ (hxk) and the pieces before it have total extent k (hpre), the concatenation at (a, b, c, d, k) is x₁ at
    (a, b, c, d, 0). -/
theorem concat_unit5_apply (xs : List ((s : Shape) × (s.Idx → α)))
    (h : Shape.Concatenates (xs.map (·.1)) ⟨5, ![A, B, C, D, E]⟩ 4) (a : Fin A) (b : Fin B) (c : Fin C) (d : Fin D)
    (k : Fin E) (hlen : xs.length = E) (x₁ : (⟨5, ![A, B, C, D, 1]⟩ : Shape).Idx → α)
    (hxk : xs[k.val]'(hlen ▸ k.isLt) = ⟨⟨5, ![A, B, C, D, 1]⟩, x₁⟩)
    (hpre : (((xs.take k.val).map (·.1)).map fun s : Shape =>
        if h : s.rank = (⟨5, ![A, B, C, D, E]⟩ : Shape).rank then
          s.size ((4 : Fin (⟨5, ![A, B, C, D, E]⟩ : Shape).rank).cast h.symm) else 0).sum = k.val) :
    concatenate ⟨5, ![A, B, C, D, E]⟩ 4 xs h (ix5 a b c d k) = x₁ (ix5 a b c d (0 : Fin 1)) :=
  concatenate_apply_piece 4 xs h (ix5 a b c d k) k.val (hlen ▸ k.isLt) ⟨5, ![A, B, C, D, 1]⟩ x₁ hxk rfl k.val hpre
    (ix5 a b c d (0 : Fin 1))
    (fun ax hax => by
      match ax with
      | ⟨0, _⟩ => rfl
      | ⟨1, _⟩ => rfl
      | ⟨2, _⟩ => rfl
      | ⟨3, _⟩ => rfl
      | ⟨4, _⟩ => exact absurd rfl hax)
    rfl

/-- The case the lemma is for: nine pieces stacked along the last axis, read at the fourth. -/
example (p : Fin 9 → ((⟨5, ![2, 3, 4, 5, 1]⟩ : Shape).Idx → α))
    (h : Shape.Concatenates [⟨5, ![2, 3, 4, 5, 1]⟩, ⟨5, ![2, 3, 4, 5, 1]⟩, ⟨5, ![2, 3, 4, 5, 1]⟩, ⟨5, ![2, 3, 4, 5, 1]⟩,
      ⟨5, ![2, 3, 4, 5, 1]⟩, ⟨5, ![2, 3, 4, 5, 1]⟩, ⟨5, ![2, 3, 4, 5, 1]⟩, ⟨5, ![2, 3, 4, 5, 1]⟩, ⟨5, ![2, 3, 4, 5, 1]⟩]
      ⟨5, ![2, 3, 4, 5, 9]⟩ 4) (a : Fin 2) (b : Fin 3) (c : Fin 4) (d : Fin 5) :
    concatenate ⟨5, ![2, 3, 4, 5, 9]⟩ 4 [⟨_, p 0⟩, ⟨_, p 1⟩, ⟨_, p 2⟩, ⟨_, p 3⟩, ⟨_, p 4⟩, ⟨_, p 5⟩, ⟨_, p 6⟩, ⟨_, p 7⟩,
      ⟨_, p 8⟩] h (ix5 a b c d (3 : Fin 9)) = p 3 (ix5 a b c d (0 : Fin 1)) :=
  concat_unit5_apply _ _ a b c d 3 rfl (p 3) rfl rfl

end Cert.Lib.Ref

end
-- ==== Proof.DtwRefCost.lean ====
/-
  The reference's nine path costs read at an index.

  For each of the nine monotone paths the reference adds the squares of the path's steps (a left-nested sum of arrays
  [5, 8, 64, 4093]), appends a unit axis, stacks the nine sums along that new last axis ([5, 8, 64, 4093, 9]) and sums
  over the 64 channels (axis 2) from the initial value 0. At (e, b, l, k) the result is the specification's cost of path k
  for signal row b, template e and window l: addition on the extended reals is commutative and associative, so the
  left-nested sum of the steps' squares is the sum of the list of the steps' squares.
-/
import proofs.«169870_j18098992185357_2_alg».proof.Proof.DtwRefSq
import proofs.«169870_j18098992185357_2_alg».proof.Proof.LibConcatUnit

noncomputable section

open scoped BigOperators

namespace Cert.ReferenceIdeal.RefValue

open Cert.ReferenceIdeal Cert.ReferenceIdeal.Gen Cert.ReferenceIdeal.Value
open Idealize.ShloMosaic Idealize.ShloMosaic.ValueIdx Cert.Dtw Cert.Lib.Ref

variable (V0 : Valuation τ sig (Elt Ideal))

/-- The stacked path sums summed over the channels: at (e, b, l, k) the sum over the channels c of the stack at
    (e, b, c, l, k). -/
theorem v114_sum (e : Fin 5) (b : Fin 8) (l : Fin 4093) (k : Fin 9) (g : Fin 64 → EReal)
    (hg : ∀ c : Fin 64,
      concatenate S5x8x64x4093x9 4 [⟨S5x8x64x4093x1, (broadcastInDim S5x8x64x4093x1 ![0, 1, 2, 3] bcast_S5x8x64x4093_S5x8x64x4093x1_0_1_2_3 (addf (addf (addf (res_main_v14 V0) (res_main_v18 V0)) (res_main_v22 V0)) (res_main_v26 V0)))⟩, ⟨S5x8x64x4093x1, (broadcastInDim S5x8x64x4093x1 ![0, 1, 2, 3] bcast_S5x8x64x4093_S5x8x64x4093x1_0_1_2_3 (addf (addf (addf (addf (res_main_v14 V0) (res_main_v30 V0)) (res_main_v34 V0)) (res_main_v38 V0)) (res_main_v26 V0)))⟩, ⟨S5x8x64x4093x1, (broadcastInDim S5x8x64x4093x1 ![0, 1, 2, 3] bcast_S5x8x64x4093_S5x8x64x4093x1_0_1_2_3 (addf (addf (addf (addf (addf (res_main_v14 V0) (res_main_v30 V0)) (mulf (res_main_v41 V0) (res_main_v41 V0))) (mulf (res_main_v45 V0) (res_main_v45 V0))) (res_main_v38 V0)) (res_main_v26 V0)))⟩, ⟨S5x8x64x4093x1, (broadcastInDim S5x8x64x4093x1 ![0, 1, 2, 3] bcast_S5x8x64x4093_S5x8x64x4093x1_0_1_2_3 (addf (addf (addf (addf (res_main_v14 V0) (res_main_v18 V0)) (res_main_v34 V0)) (res_main_v38 V0)) (res_main_v26 V0)))⟩, ⟨S5x8x64x4093x1, (broadcastInDim S5x8x64x4093x1 ![0, 1, 2, 3] bcast_S5x8x64x4093_S5x8x64x4093x1_0_1_2_3 (addf (addf (addf (addf (res_main_v14 V0) (res_main_v30 V0)) (res_main_v34 V0)) (res_main_v22 V0)) (res_main_v26 V0)))⟩, ⟨S5x8x64x4093x1, (broadcastInDim S5x8x64x4093x1 ![0, 1, 2, 3] bcast_S5x8x64x4093_S5x8x64x4093x1_0_1_2_3 (addf (addf (addf (addf (res_main_v14 V0) (res_main_v50 V0)) (res_main_v54 V0)) (res_main_v58 V0)) (res_main_v26 V0)))⟩, ⟨S5x8x64x4093x1, (broadcastInDim S5x8x64x4093x1 ![0, 1, 2, 3] bcast_S5x8x64x4093_S5x8x64x4093x1_0_1_2_3 (addf (addf (addf (addf (addf (res_main_v14 V0) (res_main_v50 V0)) (mulf (res_main_v61 V0) (res_main_v61 V0))) (mulf (res_main_v65 V0) (res_main_v65 V0))) (res_main_v58 V0)) (res_main_v26 V0)))⟩, ⟨S5x8x64x4093x1, (broadcastInDim S5x8x64x4093x1 ![0, 1, 2, 3] bcast_S5x8x64x4093_S5x8x64x4093x1_0_1_2_3 (addf (addf (addf (addf (res_main_v14 V0) (res_main_v18 V0)) (res_main_v54 V0)) (res_main_v58 V0)) (res_main_v26 V0)))⟩, ⟨S5x8x64x4093x1, (broadcastInDim S5x8x64x4093x1 ![0, 1, 2, 3] bcast_S5x8x64x4093_S5x8x64x4093x1_0_1_2_3 (addf (addf (addf (addf (res_main_v14 V0) (res_main_v50 V0)) (res_main_v54 V0)) (res_main_v22 V0)) (res_main_v26 V0)))⟩] concatenates_S5x8x64x4093x1_S5x8x64x4093x1_S5x8x64x4093x1_S5x8x64x4093x1_S5x8x64x4093x1_S5x8x64x4093x1_S5x8x64x4093x1_S5x8x64x4093x1_S5x8x64x4093x1_S5x8x64x4093x9_d4 (ix5 e b c l k) = g c) :
    res_main_v114 V0 (ix4 e b l k) = ∑ c : Fin 64, g c := by
  refine (hostReduceAdd_axis2of5 _ _ reducesTo_S5x8x64x4093x9_S5x8x4093x9_d2 (by decide) h_S_ e b l k).trans ?_
  rw [constant_apply, Ideal.ofBits_zero_f32, zero_add]
  exact Finset.sum_congr rfl fun c _ => hg c

/-- Path 0. -/
theorem cost0_apply (e : Fin 5) (b : Fin 8) (l : Fin 4093) :
    res_main_v114 V0 (ix4 e b l (0 : Fin 9)) = costR (rowX (V0 (Proc.devRef .tc main_arg0)) b) (rowW (V0 (Proc.devRef .tc main_arg1)) e) l 0 := by
  unfold costR
  refine v114_sum V0 e b l 0 _ fun c => ?_
  refine (concat_unit5_apply _ _ e b c l (0 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq11_apply V0 e b c l, sq22_apply V0 e b c l, sq33_apply V0 e b c l]
  simp only [path, List.map_cons, List.map_nil, List.sum_cons, List.sum_nil, add_zero, add_assoc]

/-- Path 1. -/
theorem cost1_apply (e : Fin 5) (b : Fin 8) (l : Fin 4093) :
    res_main_v114 V0 (ix4 e b l (1 : Fin 9)) = costR (rowX (V0 (Proc.devRef .tc main_arg0)) b) (rowW (V0 (Proc.devRef .tc main_arg1)) e) l 1 := by
  unfold costR
  refine v114_sum V0 e b l 1 _ fun c => ?_
  refine (concat_unit5_apply _ _ e b c l (1 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq01_apply V0 e b c l, sq12_apply V0 e b c l, sq23_apply V0 e b c l, sq33_apply V0 e b c l]
  simp only [path, List.map_cons, List.map_nil, List.sum_cons, List.sum_nil, add_zero, add_assoc]

/-- Path 2. -/
theorem cost2_apply (e : Fin 5) (b : Fin 8) (l : Fin 4093) :
    res_main_v114 V0 (ix4 e b l (2 : Fin 9)) = costR (rowX (V0 (Proc.devRef .tc main_arg0)) b) (rowW (V0 (Proc.devRef .tc main_arg1)) e) l 2 := by
  unfold costR
  refine v114_sum V0 e b l 2 _ fun c => ?_
  refine (concat_unit5_apply _ _ e b c l (2 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq01_apply V0 e b c l, sq02_apply V0 e b c l, sq13_apply V0 e b c l, sq23_apply V0 e b c l, sq33_apply V0 e b c l]
  simp only [path, List.map_cons, List.map_nil, List.sum_cons, List.sum_nil, add_zero, add_assoc]

/-- Path 3. -/
theorem cost3_apply (e : Fin 5) (b : Fin 8) (l : Fin 4093) :
    res_main_v114 V0 (ix4 e b l (3 : Fin 9)) = costR (rowX (V0 (Proc.devRef .tc main_arg0)) b) (rowW (V0 (Proc.devRef .tc main_arg1)) e) l 3 := by
  unfold costR
  refine v114_sum V0 e b l 3 _ fun c => ?_
  refine (concat_unit5_apply _ _ e b c l (3 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq11_apply V0 e b c l, sq12_apply V0 e b c l, sq23_apply V0 e b c l, sq33_apply V0 e b c l]
  simp only [path, List.map_cons, List.map_nil, List.sum_cons, List.sum_nil, add_zero, add_assoc]

/-- Path 4. -/
theorem cost4_apply (e : Fin 5) (b : Fin 8) (l : Fin 4093) :
    res_main_v114 V0 (ix4 e b l (4 : Fin 9)) = costR (rowX (V0 (Proc.devRef .tc main_arg0)) b) (rowW (V0 (Proc.devRef .tc main_arg1)) e) l 4 := by
  unfold costR
  refine v114_sum V0 e b l 4 _ fun c => ?_
  refine (concat_unit5_apply _ _ e b c l (4 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq01_apply V0 e b c l, sq12_apply V0 e b c l, sq22_apply V0 e b c l, sq33_apply V0 e b c l]
  simp only [path, List.map_cons, List.map_nil, List.sum_cons, List.sum_nil, add_zero, add_assoc]

/-- Path 5. -/
theorem cost5_apply (e : Fin 5) (b : Fin 8) (l : Fin 4093) :
    res_main_v114 V0 (ix4 e b l (5 : Fin 9)) = costR (rowX (V0 (Proc.devRef .tc main_arg0)) b) (rowW (V0 (Proc.devRef .tc main_arg1)) e) l 5 := by
  unfold costR
  refine v114_sum V0 e b l 5 _ fun c => ?_
  refine (concat_unit5_apply _ _ e b c l (5 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq10_apply V0 e b c l, sq21_apply V0 e b c l, sq32_apply V0 e b c l, sq33_apply V0 e b c l]
  simp only [path, List.map_cons, List.map_nil, List.sum_cons, List.sum_nil, add_zero, add_assoc]

/-- Path 6. -/
theorem cost6_apply (e : Fin 5) (b : Fin 8) (l : Fin 4093) :
    res_main_v114 V0 (ix4 e b l (6 : Fin 9)) = costR (rowX (V0 (Proc.devRef .tc main_arg0)) b) (rowW (V0 (Proc.devRef .tc main_arg1)) e) l 6 := by
  unfold costR
  refine v114_sum V0 e b l 6 _ fun c => ?_
  refine (concat_unit5_apply _ _ e b c l (6 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq10_apply V0 e b c l, sq20_apply V0 e b c l, sq31_apply V0 e b c l, sq32_apply V0 e b c l, sq33_apply V0 e b c l]
  simp only [path, List.map_cons, List.map_nil, List.sum_cons, List.sum_nil, add_zero, add_assoc]

/-- Path 7. -/
theorem cost7_apply (e : Fin 5) (b : Fin 8) (l : Fin 4093) :
    res_main_v114 V0 (ix4 e b l (7 : Fin 9)) = costR (rowX (V0 (Proc.devRef .tc main_arg0)) b) (rowW (V0 (Proc.devRef .tc main_arg1)) e) l 7 := by
  unfold costR
  refine v114_sum V0 e b l 7 _ fun c => ?_
  refine (concat_unit5_apply _ _ e b c l (7 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq11_apply V0 e b c l, sq21_apply V0 e b c l, sq32_apply V0 e b c l, sq33_apply V0 e b c l]
  simp only [path, List.map_cons, List.map_nil, List.sum_cons, List.sum_nil, add_zero, add_assoc]

/-- Path 8. -/
theorem cost8_apply (e : Fin 5) (b : Fin 8) (l : Fin 4093) :
    res_main_v114 V0 (ix4 e b l (8 : Fin 9)) = costR (rowX (V0 (Proc.devRef .tc main_arg0)) b) (rowW (V0 (Proc.devRef .tc main_arg1)) e) l 8 := by
  unfold costR
  refine v114_sum V0 e b l 8 _ fun c => ?_
  refine (concat_unit5_apply _ _ e b c l (8 : Fin 9) rfl _ rfl rfl).trans ?_
  refine (keep4_unit_apply _ rfl _ bcast_S5x8x64x4093_S5x8x64x4093x1_0_1_2_3 e b c l 0).trans ?_
  simp only [addf_apply]
  rw [sq00_apply V0 e b c l, sq10_apply V0 e b c l, sq21_apply V0 e b c l, sq22_apply V0 e b c l, sq33_apply V0 e b c l]
  simp only [path, List.map_cons, List.map_nil, List.sum_cons, List.sum_nil, add_zero, add_assoc]

/-- The reference's path costs are the specification's. -/
theorem v114_apply (e : Fin 5) (b : Fin 8) (l : Fin 4093) (k : Fin 9) :
    res_main_v114 V0 (ix4 e b l k) = costR (rowX (V0 (Proc.devRef .tc main_arg0)) b) (rowW (V0 (Proc.devRef .tc main_arg1)) e) l k := by
  match k with
  | ⟨0, _⟩ => exact cost0_apply V0 e b l
  | ⟨1, _⟩ => exact cost1_apply V0 e b l
  | ⟨2, _⟩ => exact cost2_apply V0 e b l
  | ⟨3, _⟩ => exact cost3_apply V0 e b l
  | ⟨4, _⟩ => exact cost4_apply V0 e b l
  | ⟨5, _⟩ => exact cost5_apply V0 e b l
  | ⟨6, _⟩ => exact cost6_apply V0 e b l
  | ⟨7, _⟩ => exact cost7_apply V0 e b l
  | ⟨8, _⟩ => exact cost8_apply V0 e b l

end Cert.ReferenceIdeal.RefValue

end
-- ==== Proof.DtwRef.lean ====
/-
  The reference computes the specification.

  From the nine path costs T(e, b, l, ·) the reference forms the softmax of −T along the last axis: the negated costs,
  their maximum M (a fold of max from −∞ over the nine entries, then once more against −∞), the weights exp(−T − M), their
  sum, each weight divided by that sum; it multiplies by T, sums over the nine paths from the initial value 0, and swaps
  the first two axes. Read at (b, e, l) this is Σ_k T k · (w k / Σ_j w j) with w k = exp(−T k − M) and M the supremum of
  the −T k: the specification's weighted mean for signal row b, template e and window l.
-/
import proofs.«169870_j18098992185357_2_alg».proof.Proof.DtwRefCost

noncomputable section

open scoped BigOperators

namespace Cert.ReferenceIdeal.RefValue

open Cert.ReferenceIdeal Cert.ReferenceIdeal.Gen Cert.ReferenceIdeal.Value
open Idealize.ShloMosaic Idealize.ShloMosaic.ValueIdx Cert.Dtw Cert.Lib.Ref

/-- A [5, 8, 4093] array given a unit last axis and broadcast along it to [5, 8, 4093, 9] reads, at (e, b, l, k), the
    array at (e, b, l). -/
theorem keep_apply (y : S5x8x4093.Idx → EReal) (e : Fin 5) (b : Fin 8) (l : Fin 4093) (k : Fin 9) :
    broadcastInDim S5x8x4093x9 ![0, 1, 2, 3] bcast_S5x8x4093x1_S5x8x4093x9_0_1_2_3 (broadcastInDim S5x8x4093x1 ![0, 1, 2] bcast_S5x8x4093_S5x8x4093x1_0_1_2 y) (ix4 e b l k) = y (ix3 e b l) :=
  (keep3_bcast_apply _ rfl _ bcast_S5x8x4093x1_S5x8x4093x9_0_1_2_3 e b l k).trans
    (keep3_unit_apply _ rfl y bcast_S5x8x4093_S5x8x4093x1_0_1_2 e b l 0)

/-- A sum along the last axis from the initial value 0: at (e, b, l) the sum of the nine entries. -/
theorem sum9_apply (x : S5x8x4093x9.Idx → EReal) (e : Fin 5) (b : Fin 8) (l : Fin 4093) :
    Host.reduceAdd (F := Ideal) x (constant (F := Ideal) S_ .f32 0x00000000#32) reducesTo_S5x8x4093x9_S5x8x4093_d3 h_S_ (ix3 e b l) = ∑ k : Fin 9, x (ix4 e b l k) := by
  rw [hostReduceAdd_last4 x _ reducesTo_S5x8x4093x9_S5x8x4093_d3 (by decide) h_S_ e b l, constant_apply,
    Ideal.ofBits_zero_f32, zero_add]

/-- The maximum along the last axis from −∞, taken once more against −∞: at (e, b, l) the supremum of the nine
    entries. -/
theorem max9_apply (x : S5x8x4093x9.Idx → EReal) (e : Fin 5) (b : Fin 8) (l : Fin 4093) :
    maximumf (F := Ideal) (broadcastInDim S5x8x4093 ![] bcast_S_S5x8x4093 (constant (F := Ideal) S_ .f32 0xFF800000#32))
        (Host.reduce FloatOps.maximumf x (constant (F := Ideal) S_ .f32 0xFF800000#32) reducesTo_S5x8x4093x9_S5x8x4093_d3 h_S_) (ix3 e b l)
      = Finset.univ.sup fun k : Fin 9 => x (ix4 e b l k) := by
  rw [maximumf_apply, bcast_scalar3_apply, constant_apply, ofBits_neg_inf_f32, max_bot_left]
  refine (hostReduce_last4 (FloatOps.maximumf (F := Ideal) (φ := .f32)) reducesTo_S5x8x4093x9_S5x8x4093_d3 (by decide) x _
    h_S_ e b l).trans ?_
  rw [constant_apply, ofBits_neg_inf_f32]
  exact fold_max_bot Finset.univ fun k : Fin 9 => x (ix4 e b l k)

/-- The exponential of an array less a kept-dimension array: at (e, b, l, k) exp(a(e, b, l, k) − y(e, b, l)). -/
theorem exp_sub_apply (a : S5x8x4093x9.Idx → EReal) (y : S5x8x4093.Idx → EReal) (e : Fin 5) (b : Fin 8) (l : Fin 4093)
    (k : Fin 9) :
    Host.exp (F := Ideal) (φ := .f32) (subf a (broadcastInDim S5x8x4093x9 ![0, 1, 2, 3] bcast_S5x8x4093x1_S5x8x4093x9_0_1_2_3 (broadcastInDim S5x8x4093x1 ![0, 1, 2] bcast_S5x8x4093_S5x8x4093x1_0_1_2 y))) (ix4 e b l k) = Ideal.exp (a (ix4 e b l k) - y (ix3 e b l)) := by
  show Ideal.exp (a (ix4 e b l k) - broadcastInDim S5x8x4093x9 ![0, 1, 2, 3] bcast_S5x8x4093x1_S5x8x4093x9_0_1_2_3 (broadcastInDim S5x8x4093x1 ![0, 1, 2] bcast_S5x8x4093_S5x8x4093x1_0_1_2 y) (ix4 e b l k)) = _
  rw [keep_apply]

/-- Weights normalised by their sum, multiplied by the costs and summed: at (e, b, l) the sum over the nine paths of
    t · (w / Σ w). -/
theorem mix_apply (t w : S5x8x4093x9.Idx → EReal) (e : Fin 5) (b : Fin 8) (l : Fin 4093) :
    Host.reduceAdd (F := Ideal)
        (mulf t (Host.divf w (broadcastInDim S5x8x4093x9 ![0, 1, 2, 3] bcast_S5x8x4093x1_S5x8x4093x9_0_1_2_3 (broadcastInDim S5x8x4093x1 ![0, 1, 2] bcast_S5x8x4093_S5x8x4093x1_0_1_2 (Host.reduceAdd (F := Ideal) w (constant (F := Ideal) S_ .f32 0x00000000#32) reducesTo_S5x8x4093x9_S5x8x4093_d3 h_S_)))))
        (constant (F := Ideal) S_ .f32 0x00000000#32) reducesTo_S5x8x4093x9_S5x8x4093_d3 h_S_ (ix3 e b l)
      = ∑ k : Fin 9, t (ix4 e b l k) * Ideal.div (w (ix4 e b l k)) (∑ j : Fin 9, w (ix4 e b l j)) := by
  rw [sum9_apply]
  refine Finset.sum_congr rfl fun k _ => ?_
  show t (ix4 e b l k) * Ideal.div (w (ix4 e b l k))
    (broadcastInDim S5x8x4093x9 ![0, 1, 2, 3] bcast_S5x8x4093x1_S5x8x4093x9_0_1_2_3 (broadcastInDim S5x8x4093x1 ![0, 1, 2] bcast_S5x8x4093_S5x8x4093x1_0_1_2 (Host.reduceAdd (F := Ideal) w (constant (F := Ideal) S_ .f32 0x00000000#32) reducesTo_S5x8x4093x9_S5x8x4093_d3 h_S_)) (ix4 e b l k)) = _
  rw [keep_apply, sum9_apply]

variable (V0 : Valuation τ sig (Elt Ideal))

/-- The negated costs. -/
theorem v115_apply (e : Fin 5) (b : Fin 8) (l : Fin 4093) (k : Fin 9) :
    res_main_v115 V0 (ix4 e b l k) = Neg.neg (α := EReal) (res_main_v114 V0 (ix4 e b l k)) := rfl

/-- The reference's weights are the specification's, with the shift the supremum of the negated costs. -/
theorem v122_apply (e : Fin 5) (b : Fin 8) (l : Fin 4093) (k : Fin 9) :
    res_main_v122 V0 (ix4 e b l k) = weight (fun k : Fin 9 => res_main_v114 V0 (ix4 e b l k)) (peak (fun k : Fin 9 => res_main_v114 V0 (ix4 e b l k))) k := by
  refine (exp_sub_apply (res_main_v115 V0) _ e b l k).trans ?_
  rw [max9_apply]
  rfl

/-- The reference's result is the specification's array. -/
theorem result_eq :
    transpose S8x5x4093 [1, 0, 2] (Host.reduceAdd (mulf (res_main_v114 V0) (Host.divf (res_main_v122 V0) (broadcastInDim S5x8x4093x9 ![0, 1, 2, 3] bcast_S5x8x4093x1_S5x8x4093x9_0_1_2_3 (broadcastInDim S5x8x4093x1 ![0, 1, 2] bcast_S5x8x4093_S5x8x4093x1_0_1_2 (Host.reduceAdd (res_main_v122 V0) (constant (F := Ideal) S_ .f32 0x00000000#32) reducesTo_S5x8x4093x9_S5x8x4093_d3 h_S_))))) (constant (F := Ideal) S_ .f32 0x00000000#32) reducesTo_S5x8x4093x9_S5x8x4093_d3 h_S_) transposes_S5x8x4093_S8x5x4093_1_0_2
      = Cert.Dtw.G (V0 (Proc.devRef .tc main_arg0)) (V0 (Proc.devRef .tc main_arg1)) := by
  funext i
  obtain ⟨b, e, l, rfl⟩ : ∃ (b : Fin 8) (e : Fin 5) (l : Fin 4093), i = ix3 b e l := ⟨i 0, i 1, i 2, eq_ix3 i⟩
  refine (transpose102_apply _ transposes_S5x8x4093_S8x5x4093_1_0_2 e b l).trans ?_
  refine (mix_apply (res_main_v114 V0) (res_main_v122 V0) e b l).trans ?_
  have hT : (fun k : Fin 9 => res_main_v114 V0 (ix4 e b l k)) = costR (rowX (V0 (Proc.devRef .tc main_arg0)) b) (rowW (V0 (Proc.devRef .tc main_arg1)) e) l := funext fun k => v114_apply V0 e b l k
  simp only [v122_apply]
  rw [hT]
  show _ = mixR (costR (rowX (V0 (Proc.devRef .tc main_arg0)) b) (rowW (V0 (Proc.devRef .tc main_arg1)) e) l) (peak (costR (rowX (V0 (Proc.devRef .tc main_arg0)) b) (rowW (V0 (Proc.devRef .tc main_arg1)) e) l))
  unfold mixR
  exact Finset.sum_congr rfl fun k _ => by rw [v114_apply]

end Cert.ReferenceIdeal.RefValue

end
-- ==== Proof.DtwClaims.lean ====
/-
  The claims.

  Both programs, read over the extended reals, from finite arguments that agree, end with the same array [8, 5, 4093]: entry
  (n, e, l) is the mean, weighted by softmax(−cost), of the nine monotone-path costs of signal row n against template e at
  window l. The kernel's run gives its own arrangement of that number (squares expanded, the rows of squares cached, the
  sums left-nested, one division at the end); with every entry real it is the reference arrangement. The reference's run
  gives the reference arrangement directly. The three frame claims are the generated runs' posts, and reading the kernel
  over the extended reals rewrote no operation.
-/
import proofs.«169870_j18098992185357_2_alg».proof.Defs
import proofs.«169870_j18098992185357_2_alg».proof.Proof.Gen.Kernel.Frame
import proofs.«169870_j18098992185357_2_alg».proof.Proof.Gen.KernelIdeal.Frame
import proofs.«169870_j18098992185357_2_alg».proof.Proof.Gen.ReferenceIdeal.Run
import proofs.«169870_j18098992185357_2_alg».proof.Proof.DtwGridSpec
import proofs.«169870_j18098992185357_2_alg».proof.Proof.DtwFinite
import proofs.«169870_j18098992185357_2_alg».proof.Proof.DtwCarry
import proofs.«169870_j18098992185357_2_alg».proof.Proof.DtwRef

noncomputable section

namespace Cert.Proof.DtwClaims

open Idealize.ShloMosaic Idealize.SL.Sem Idealize.ShloMosaic.TcCoe Idealize.ShloMosaic.StableHlo

/-- The kernel as printed runs and leaves its arguments unchanged. -/
theorem frame_k : Cert.frame_Kernel := fun m ρ _ => Cert.Kernel.Gen.frame m ρ

/-- The kernel read over the extended reals runs and leaves its arguments unchanged. -/
theorem frame_ki : Cert.frame_KernelIdeal := fun m ρ _ => Cert.KernelIdeal.Gen.frame m ρ

/-- The reference read over the extended reals runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Over the extended reals, from arguments that agree and are finite, both programs end with the same array: entry
    (n, e, l) is the mean, weighted by softmax(−cost), of the nine path costs of signal row n against template e at
    window l. The kernel reaches it with the squares expanded and one division (equal to the reference arrangement because
    every entry is a real number); the reference computes it as stated. -/
theorem algebraic : Cert.algebraic_KernelIdeal_ReferenceIdeal := by
  intro m ρ m' ρ' hpre hagree
  refine ⟨fun c => Cert.Dtw.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Grid.run m ρ (fun c t => Cert.KernelIdeal.Carry.block_eq m c t))
    obtain ⟨hX, hW⟩ := Cert.Dtw.real_of_pre _ _ (hpre c)
    exact Cert.KernelIdeal.Grid.Hout_eq_G _ _ hX hW
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq (launchContents m' c)).trans ?_
    show Cert.Dtw.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
    rw [(hagree c).1, (hagree c).2]

end Cert.Proof.DtwClaims

end
-- ==== Proof.lean ====
/-
  A softmax-weighted mean of nine alignment costs, computed two ways.

  For a signal row a (64 channels, 4096 samples), a template d of the same shape and a window of four consecutive samples
  starting at l, nine monotone paths lead through the 4 × 4 grid of pairs (signal sample i, template sample j). A path's
  cost is the sum over its steps and over the channels of (a(c, l+i) − d(c, l+j))², and the result is the mean of the nine
  costs weighted by softmax(−cost). The result array [8, 5, 4093] holds this number for 8 signal rows, 5 templates and
  4093 windows.

  The reference sums squared differences channel by channel, normalises each weight and sums. The kernel expands the
  square, (a − d)² = a² + d² − 2·a·d, sums each product over the channels first — Σ_c a² once per signal row, kept in a
  cache across the five templates of a batch half; Σ_c d² once per template; Σ_c a·d for the five shifts that occur —,
  combines the sums on rows of 4093 positions, and divides once at the end. With every input entry a real number (the
  precondition) the two arrangements are the same real number; on the extended reals the expansion and the exchange of
  sums fail at the infinities, which is why the precondition is used.

  The modules: the function and its two arrangements (DtwSpec), their equality for real entries and the precondition read
  back as "every entry is real" (DtwAlgebra, DtwFinite), the kernel's order of operations on numbers (DtwChain,
  DtwChainLaws), the kernel's body read as numbers case by case (DtwBlock, DtwRowsBase, DtwRowsB, DtwRowsA, DtwRowsS), the
  cache across the grid (DtwCarry), blocks to array and the exchange-and-flatten of the batch axes after the region
  (DtwGridIdx, DtwGrid, DtwGridSpec), the reference's result read at an index (DtwRefSq, DtwRefCost, DtwRef), and the
  claims (DtwClaims).
-/
import proofs.«169870_j18098992185357_2_alg».proof.Defs
import proofs.«169870_j18098992185357_2_alg».proof.Proof.Gen.Kernel
import proofs.«169870_j18098992185357_2_alg».proof.Proof.Gen.KernelIdeal
import proofs.«169870_j18098992185357_2_alg».proof.Proof.Gen.ReferenceIdeal
import proofs.«169870_j18098992185357_2_alg».proof.Proof.Gen.Pre_finite_inputs
import proofs.«169870_j18098992185357_2_alg».proof.Proof.DtwClaims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    DtwClaims.frame_k, DtwClaims.frame_ki, DtwClaims.frame_ri, DtwClaims.preserves, DtwClaims.algebraic⟩

end Cert.Proof

end
